-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S256x256x8 : Shape := ⟨3, ![256, 256, 8]⟩
abbrev S256 : Shape := ⟨1, ![256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x256x8 : S_.BroadcastsInDim S256x256x8 (![] : Fin 0 → Fin S256x256x8.rank)
  reducesTo_S256x256x8_S_d0_1_2 : S256x256x8.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S512x256 .f32) (main_arg1 : FVec F S256x256x8 .f32) (main_arg2 : FVec F S256x256x8 .f32) (main_arg3 : FVec F S256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x256x8 .f32 := Host.absf main_arg1
  let main_cst_0 : FVec F S_ .f32 := constant S_ .f32 0x7F800000#32
  let main_v5 : FVec F S256x256x8 .f32 := broadcastInDim S256x256x8 ![] bcast_S_S256x256x8 main_cst_0
  let main_v6 : IVec S256x256x8 1 := cmpf .olt main_v4 main_v5
  let main_c_1 : IVec S_ 1 := constantI S_ 1 1#1
  let main_v7 : IVec S_ 1 := (fun x v => Host.reduce IntOp.andi x v reducesTo_S256x256x8_S_d0_1_2 h_S_) main_v6 main_c_1
  let main_v8 : IVec S_ 1 := andi main_v3 main_v7
  let main_v9 : FVec F S256x256x8 .f32 := Host.absf main_arg2
  let main_cst_2 : FVec F S_ .f32 := constant S_ .f32 0x7F800000#32
  let main_v10 : FVec F S256x256x8 .f32 := broadcastInDim S256x256x8 ![] bcast_S_S256x256x8 main_cst_2
  let main_v11 : IVec S256x256x8 1 := cmpf .olt main_v9 main_v10
  let main_c_3 : IVec S_ 1 := constantI S_ 1 1#1
  let main_v12 : IVec S_ 1 := (fun x v => Host.reduce IntOp.andi x v reducesTo_S256x256x8_S_d0_1_2 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S512x256 : Shape := ⟨2, ![512, 256]⟩
abbrev S256x256x8 : Shape := ⟨3, ![256, 256, 8]⟩
abbrev S256 : Shape := ⟨1, ![256]⟩
abbrev S8x256x256 : Shape := ⟨3, ![8, 256, 256]⟩
abbrev S64x128 : Shape := ⟨2, ![64, 128]⟩
abbrev S8x128x256 : Shape := ⟨3, ![8, 128, 256]⟩
abbrev S64x256 : Shape := ⟨2, ![64, 256]⟩
abbrev S128x256 : Shape := ⟨2, ![128, 256]⟩
abbrev S1x128x256 : Shape := ⟨3, ![1, 128, 256]⟩
abbrev S64x128x1 : Shape := ⟨3, ![64, 128, 1]⟩
abbrev S64x128x256 : Shape := ⟨3, ![64, 128, 256]⟩
abbrev S1x256 : Shape := ⟨2, ![1, 256]⟩

abbrev nBuf : Space → Nat
  | .hbm => 7
  | .vmem => 10
  | .smem => 0
  | _ => 0

abbrev bufTy : (tb : Table) → Fin (tcTables nBuf tb) → BufTy
  | .hbm, ⟨0, _⟩ => ⟨S512x256, .f32⟩
  | .hbm, ⟨1, _⟩ => ⟨S256x256x8, .f32⟩
  | .hbm, ⟨2, _⟩ => ⟨S256x256x8, .f32⟩
  | .hbm, ⟨3, _⟩ => ⟨S256, .f32⟩
  | .hbm, ⟨4, _⟩ => ⟨S8x256x256, .f32⟩
  | .hbm, ⟨5, _⟩ => ⟨S8x256x256, .f32⟩
  | .hbm, ⟨6, _⟩ => ⟨S512x256, .f32⟩
  | .local _ .vmem, ⟨0, _⟩ => ⟨S64x128, .f32⟩
  | .local _ .vmem, ⟨1, _⟩ => ⟨S64x128, .f32⟩
  | .local _ .vmem, ⟨2, _⟩ => ⟨S8x128x256, .f32⟩
  | .local _ .vmem, ⟨3, _⟩ => ⟨S8x128x256, .f32⟩
  | .local _ .vmem, ⟨4, _⟩ => ⟨S8x128x256, .f32⟩
  | .local _ .vmem, ⟨5, _⟩ => ⟨S8x128x256, .f32⟩
  | .local _ .vmem, ⟨6, _⟩ => ⟨S256, .f32⟩
  | .local _ .vmem, ⟨7, _⟩ => ⟨S64x256, .f32⟩
  | .local _ .vmem, ⟨8, _⟩ => ⟨S64x256, .f32⟩
  | .local _ .vmem, ⟨9, _⟩ => ⟨S8x128x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_11 : BitVec 32 := 0#32
  let c8_i32 : BitVec 32 := 8#32
  let v21 : BitVec 32 := Scalar.addi c0_i32_11 c8_i32
  let c1_i32 : BitVec 32 := 1#32
  ⟨c0_i32_11, v21, c1_i32⟩
def k0_off1 (k0_t1 : Fin k0_t1_loop.trips) : Fin 3 → Nat :=
  let c0_i32_11 : BitVec 32 := 0#32
  let c1_i32 : BitVec 32 := 1#32
  let arg8 : BitVec 32 := Scf.iv c0_i32_11 c1_i32 k0_t1
  let v30 : Index := Scalar.indexCast arg8
  let c0_19 : Index := 0#32
  let c0_20 : Index := 0#32
  ![v30.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S256x256x8_S8x256x256_2_0_1 : S256x256x8.Transposes [2, 0, 1] S8x256x256
  inb_S64x256_S64x256_0_0 : ∀ a, (![0, 0] : Fin 2 → Nat) a + S64x256.size a ≤ S64x256.size a
  h_S64x256 : 0 < S64x256.numel
  inb_S8x128x256_S8x128x256_0_0_0 : ∀ a, (![0, 0, 0] : Fin 3 → Nat) a + S8x128x256.size a ≤ S8x128x256.size a
  h_S8x128x256 : 0 < S8x128x256.numel
  shapeCasts_S8x128x256_S8x128x256 : S8x128x256.ShapeCasts S8x128x256
  reduces_S8x128x256_S128x256 : S8x128x256.Reduces [0] S128x256
  shapeCasts_S128x256_S1x128x256 : S128x256.ShapeCasts S1x128x256
  broadcasts_S1x128x256_S8x128x256 : S1x128x256.Broadcasts S8x128x256
  inb_S64x128_S64x128_0_0 : ∀ a, (![0, 0] : Fin 2 → Nat) a + S64x128.size a ≤ S64x128.size a
  h_S64x128 : 0 < S64x128.numel
  h_S1x128x256 : 0 < S1x128x256.numel
  shapeCasts_S1x128x256_S128x256 : S1x128x256.ShapeCasts S128x256
  shapeCasts_S64x128_S64x128x1 : S64x128.ShapeCasts S64x128x1
  broadcasts_S64x128x1_S64x128x256 : S64x128x1.Broadcasts S64x128x256
  broadcasts_S1x128x256_S64x128x256 : S1x128x256.Broadcasts S64x128x256
  reduces_S64x128x256_S64x256 : S64x128x256.Reduces [1] S64x256
  shapeCasts_S64x256_S64x256 : S64x256.ShapeCasts S64x256
  inb_S256_S256_0 : ∀ a, (![0] : Fin 1 → Nat) a + S256.size a ≤ S256.size a
  h_S256 : 0 < S256.numel
  shapeCasts_S256_S1x256 : S256.ShapeCasts S1x256
  shapeCasts_S1x256_S1x256 : S1x256.ShapeCasts S1x256
  broadcasts_S1x256_S64x256 : S1x256.Broadcasts S64x256
  hrank0 : 0 < grid0.rank
  k0_t1_ok : k0_t1_loop.OK
  k0_off1_inb : ∀ k0_t1 : Fin k0_t1_loop.trips, ∀ a, (k0_off1 k0_t1) a + S1x128x256.size a ≤ S8x128x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S512x256.size a
  hwx0_0 : ∀ i : grid0.Coords, EltTy.bits .f32 = 32 ∨ (Rect.block (s := S512x256) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x256.size a ≤ S8x256x256.size a
  hwx0_1 : ∀ i : grid0.Coords, EltTy.bits .f32 = 32 ∨ (Rect.block (s := S8x256x256) S8x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x256.size a ≤ S8x256x256.size a
  hwx0_2 : ∀ i : grid0.Coords, EltTy.bits .f32 = 32 ∨ (Rect.block (s := S8x256x256) S8x128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S512x256.size a
  hwx0_4 : ∀ i : grid0.Coords, EltTy.bits .f32 = 32 ∨ (Rect.block (s := S512x256) S64x256.size (cc0_transform_4 i) (hinb0_4 i)).WholeWords (EltTy.packing .f32)

variable [Facts₀]

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x256 : Shape := ⟨2, ![512, 256]⟩
abbrev S256x256x8 : Shape := ⟨3, ![256, 256, 8]⟩
abbrev S256 : Shape := ⟨1, ![256]⟩
abbrev S512x256x1x1 : Shape := ⟨4, ![512, 256, 1, 1]⟩
abbrev S1x256x256x8 : Shape := ⟨4, ![1, 256, 256, 8]⟩
abbrev S512x256x256x8 : Shape := ⟨4, ![512, 256, 256, 8]⟩
abbrev S_ : Shape := ⟨0, ![]⟩
abbrev S256x256 : Shape := ⟨2, ![256, 256]⟩
abbrev S256x256x1 : Shape := ⟨3, ![256, 256, 1]⟩
abbrev S1x256 : Shape := ⟨2, ![1, 256]⟩

abbrev nBuf : Space → Nat
  | .hbm => 42
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x256x8, .f32⟩
  | .hbm, ⟨2, _⟩ => ⟨S256x256x8, .f32⟩
  | .hbm, ⟨3, _⟩ => ⟨S256, .f32⟩
  | .hbm, ⟨4, _⟩ => ⟨S512x256x1x1, .f32⟩
  | .hbm, ⟨5, _⟩ => ⟨S1x256x256x8, .f32⟩
  | .hbm, ⟨6, _⟩ => ⟨S512x256x256x8, .f32⟩
  | .hbm, ⟨7, _⟩ => ⟨S512x256x256x8, .f32⟩
  | .hbm, ⟨8, _⟩ => ⟨S512x256x256x8, .f32⟩
  | .hbm, ⟨9, _⟩ => ⟨S1x256x256x8, .f32⟩
  | .hbm, ⟨10, _⟩ => ⟨S512x256x256x8, .f32⟩
  | .hbm, ⟨11, _⟩ => ⟨S512x256x256x8, .f32⟩
  | .hbm, ⟨12, _⟩ => ⟨S512x256x256x8, .f32⟩
  | .hbm, ⟨13, _⟩ => ⟨S512x256x256x8, .f32⟩
  | .hbm, ⟨14, _⟩ => ⟨S_, .f32⟩
  | .hbm, ⟨15, _⟩ => ⟨S512x256x256x8, .f32⟩
  | .hbm, ⟨16, _⟩ => ⟨S512x256x256x8, .f32⟩
  | .hbm, ⟨17, _⟩ => ⟨S_, .f32⟩
  | .hbm, ⟨18, _⟩ => ⟨S512x256x256x8, .f32⟩
  | .hbm, ⟨19, _⟩ => ⟨S512x256x256x8, .f32⟩
  | .hbm, ⟨20, _⟩ => ⟨S_, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256x1, .f32⟩
  | .hbm, ⟨26, _⟩ => ⟨S256x256x8, .f32⟩
  | .hbm, ⟨27, _⟩ => ⟨S256x256x8, .f32⟩
  | .hbm, ⟨28, _⟩ => ⟨S256x256x8, .f32⟩
  | .hbm, ⟨29, _⟩ => ⟨S_, .f32⟩
  | .hbm, ⟨30, _⟩ => ⟨S256x256, .f32⟩
  | .hbm, ⟨31, _⟩ => ⟨S256x256x1, .f32⟩
  | .hbm, ⟨32, _⟩ => ⟨S256x256x8, .f32⟩
  | .hbm, ⟨33, _⟩ => ⟨S256x256x8, .f32⟩
  | .hbm, ⟨34, _⟩ => ⟨S1x256x256x8, .f32⟩
  | .hbm, ⟨35, _⟩ => ⟨S512x256x256x8, .f32⟩
  | .hbm, ⟨36, _⟩ => ⟨S512x256x256x8, .f32⟩
  | .hbm, ⟨37, _⟩ => ⟨S_, .f32⟩
  | .hbm, ⟨38, _⟩ => ⟨S512x256, .f32⟩
  | .hbm, ⟨39, _⟩ => ⟨S1x256, .f32⟩
  | .hbm, ⟨40, _⟩ => ⟨S512x256, .f32⟩
  | .hbm, ⟨41, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  bcast_S512x256_S512x256x1x1_0_1 : S512x256.BroadcastsInDim S512x256x1x1 (![0, 1] : Fin 2 → Fin S512x256x1x1.rank)
  bcast_S256x256x8_S1x256x256x8_1_2_3 : S256x256x8.BroadcastsInDim S1x256x256x8 (![1, 2, 3] : Fin 3 → Fin S1x256x256x8.rank)
  bcast_S1x256x256x8_S512x256x256x8_0_1_2_3 : S1x256x256x8.BroadcastsInDim S512x256x256x8 (![0, 1, 2, 3] : Fin 4 → Fin S512x256x256x8.rank)
  bcast_S512x256x1x1_S512x256x256x8_0_1_2_3 : S512x256x1x1.BroadcastsInDim S512x256x256x8 (![0, 1, 2, 3] : Fin 4 → Fin S512x256x256x8.rank)
  bcast_S_S512x256x256x8 : S_.BroadcastsInDim S512x256x256x8 (![] : Fin 0 → Fin S512x256x256x8.rank)
  reducesTo_S256x256x8_S256x256_d2 : S256x256x8.ReducesTo [2] S256x256
  h_S_ : 0 < S_.numel
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S256x256x1_S256x256x8_0_1_2 : S256x256x1.BroadcastsInDim S256x256x8 (![0, 1, 2] : Fin 3 → Fin S256x256x8.rank)
  reducesTo_S512x256x256x8_S512x256_d1_3 : S512x256x256x8.ReducesTo [1, 3] S512x256
  bcast_S256_S1x256_1 : S256.BroadcastsInDim S1x256 (![1] : Fin 1 → Fin S1x256.rank)
  bcast_S1x256_S512x256_0_1 : S1x256.BroadcastsInDim S512x256 (![0, 1] : Fin 2 → Fin S512x256.rank)

variable [Facts₀]

class Facts : Prop extends Facts₀ where

variable [Facts]
-- ==== Proof.KernelBody.lean ====
/-
  The kernel's body at one grid point, and the pipeline's run, for any float values.

  The grid is 8 batch tiles by 2 tiles of the summed input axis; point t = 2·bi + ii. At a point the body
  (1) clears the output block when ii = 0, (2) writes the softmax of the spline block over its leading axis of
  extent 8 into the scratch, (3) runs eight trips, trip k adding to a carried [64,256] block the sum over the 128
  rows of the tile of logistic(x·w_k + s_k)·softmax_k, (4) adds the carried block to the output block and,
  (5) when ii = 1, adds the bias row. The output block therefore lives across the two points of a batch tile:
  the point with ii = 0 ("opening") starts it from zero whatever the buffer held, the point with ii = 1
  ("closing") continues from what the opening point left and is the one whose block is written back.
-/
import proofs.«181999_j73194832658946_1_alg».proof.Proof.Gen.Kernel.Frame
import proofs.«181999_j73194832658946_1_alg».proof.Proof.Gen.Kernel.Skeleton
import proofs.«181999_j73194832658946_1_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points open and which close a batch tile's accumulation -/

/-- The body's first test: the tile index of the summed axis is 0. -/
abbrev atOpening (i : grid0.Coords) : Prop :=
  (Scalar.cmpi .ne (Scalar.extui (Scalar.cmpi .eq (BitVec.ofNat 32 (i 1).val) 0#32)) 0#32) = 1#1
/-- It holds exactly at the even points. -/
theorem atOpening_iff : ∀ t : Fin cfg0.N, atOpening (grid0.coords t) ↔ t.val % 2 = 0 :=
  (by decide +kernel : ∀ t : Fin grid0.N, atOpening (grid0.coords t) ↔ t.val % 2 = 0)

/-- The body's last test: the tile index of the summed axis is 1, the last one. -/
abbrev atClosing (i : grid0.Coords) : Prop :=
  (Scalar.cmpi .ne (Scalar.extui (Scalar.cmpi .eq (BitVec.ofNat 32 (i 1).val) 1#32)) 0#32) = 1#1
/-- It holds exactly at the odd points. -/
theorem atClosing_iff : ∀ t : Fin cfg0.N, atClosing (grid0.coords t) ↔ t.val % 2 = 1 :=
  (by decide +kernel : ∀ t : Fin grid0.N, atClosing (grid0.coords t) ↔ t.val % 2 = 1)

/-! ## The buffers the body is handed at a point -/

abbrev bufX (t : Fin cfg0.N) : Memref sig .tc .vmem S64x128 .f32 := win0_0.stage (cfg0.slots t 0)
abbrev bufX_whole (t : Fin cfg0.N) : (bufX t).IsWhole := hstage0_0 ((cfg0.slots t 0).cast nbuf0_0)
abbrev bufW (t : Fin cfg0.N) : Memref sig .tc .vmem S8x128x256 .f32 := win0_1.stage (cfg0.slots t 1)
abbrev bufW_whole (t : Fin cfg0.N) : (bufW t).IsWhole := hstage0_1 ((cfg0.slots t 1).cast nbuf0_1)
abbrev bufS (t : Fin cfg0.N) : Memref sig .tc .vmem S8x128x256 .f32 := win0_2.stage (cfg0.slots t 2)
abbrev bufS_whole (t : Fin cfg0.N) : (bufS t).IsWhole := hstage0_2 ((cfg0.slots t 2).cast nbuf0_2)
abbrev bufB (t : Fin cfg0.N) : Memref sig .tc .vmem S256 .f32 := win0_3.stage (cfg0.slots t 3)
abbrev bufB_whole (t : Fin cfg0.N) : (bufB t).IsWhole := hstage0_3 ((cfg0.slots t 3).cast nbuf0_3)
abbrev bufO (t : Fin cfg0.N) : Memref sig .tc .vmem S64x256 .f32 := win0_4.stage (cfg0.slots t 4)
abbrev bufO_whole (t : Fin cfg0.N) : (bufO t).IsWhole := hstage0_4 ((cfg0.slots t 4).cast nbuf0_4)
/-- The softmax scratch: a whole scoped buffer of the kernel's own. -/
abbrev bufSm : Memref sig .tc .vmem S8x128x256 .f32 := Memref.whole cc0_scratch0
/-- One view of the output block's shape, through which its contents are stated (the choice does not matter). -/
abbrev outView : View sig .tc .vmem S64x256 .f32 := (Memref.whole cc0_stg4_0 : Memref sig .tc .vmem S64x256 .f32).view

/-- What the pipeline keeps for the body between points: the softmax scratch at some contents, and the generator
    register. -/
theorem kept_eq (c : Dev nD) :
    (Pipeline.ΦA spec0 c : sProp 𝕄)
      = iprop(iprop((∃ d, owns (c : Thread nD τ) bufSm fullShare d)) ∗ (∃ r, prngReg c r)) := by
  unfold Pipeline.ΦA; rw [scopedRest0_eq]; simp only [bufSm, owns_whole]; try rfl

/-! ## The body's run at an opening and at a closing point -/

set_option maxHeartbeats 1000000 in
/-- AT AN OPENING POINT, whatever the output buffer holds: the body runs, leaves the four input blocks as they
    were, the scratch at some contents, and the output buffer with the pieces the run finds written. -/
noncomputable def runOpening (c : Dev nD) (i : grid0.Coords) (arg2 : Memref sig .tc .vmem S64x128 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S256 .f32) (harg5 : arg5.IsWhole) (arg6 : Memref sig .tc .vmem S64x256 .f32) (harg6 : arg6.IsWhole) (arg7 : Memref sig .tc .vmem S8x128x256 .f32) (harg7 : arg7.IsWhole) (hopen : atOpening i) (hnot : ¬atClosing i)
    (x0 : Vec F S64x128 .f32) (x1 : Vec F S8x128x256 .f32) (x2 : Vec F S8x128x256 .f32) (x3 : Vec F S256 .f32) :
    { L : List (View.Piece (Elt F) S64x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ (∃ d, owns (c : Thread nD τ) arg7 fullShare d)) -∗ K ⟨⟩))
          ⊢ wp frame (wpE (defs₀ (F := F)) Variants.none c none) E (cc0__kanlayer_kernel i arg2 harg2 arg3 harg3 arg4 harg4 arg5 harg5 arg6 harg6 arg7 harg7) K } := by
  refine ⟨?_, fun E K => ?run⟩
  case run =>
    simp only [cc0__kanlayer_kernel_eq_skeleton]; unfold cc0__kanlayer_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hopen | exact hnot)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _, _; isplitr; swap; · iexact HS0
    ipureintro; rfl

set_option maxHeartbeats 1000000 in
/-- AT A CLOSING POINT, the output buffer holding the running block `xo`: the same, the pieces now depending on `xo`. -/
noncomputable def runClosing (c : Dev nD) (i : grid0.Coords) (arg2 : Memref sig .tc .vmem S64x128 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S256 .f32) (harg5 : arg5.IsWhole) (arg6 : Memref sig .tc .vmem S64x256 .f32) (harg6 : arg6.IsWhole) (arg7 : Memref sig .tc .vmem S8x128x256 .f32) (harg7 : arg7.IsWhole) (hnot : ¬atOpening i) (hclose : atClosing i)
    (x0 : Vec F S64x128 .f32) (x1 : Vec F S8x128x256 .f32) (x2 : Vec F S8x128x256 .f32) (x3 : Vec F S256 .f32) (xo : Vec F S64x256 .f32) :
    { L : List (View.Piece (Elt F) S64x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ (∃ d, owns (c : Thread nD τ) arg7 fullShare d)) -∗ K ⟨⟩))
          ⊢ wp frame (wpE (defs₀ (F := F)) Variants.none c none) E (cc0__kanlayer_kernel i arg2 harg2 arg3 harg3 arg4 harg4 arg5 harg5 arg6 harg6 arg7 harg7) K } := by
  refine ⟨?_, fun E K => ?run⟩
  case run =>
    simp only [cc0__kanlayer_kernel_eq_skeleton]; unfold cc0__kanlayer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hnot | exact hclose)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _, _; isplitr; swap; · iexact HS0
    ipureintro; rfl

/-! ## What a point leaves in the output block -/

/-- The opening point's stores tile the output block. -/
theorem coverOpening (c : Dev nD) (i : grid0.Coords) (arg2 : Memref sig .tc .vmem S64x128 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S256 .f32) (harg5 : arg5.IsWhole) (arg6 : Memref sig .tc .vmem S64x256 .f32) (harg6 : arg6.IsWhole) (arg7 : Memref sig .tc .vmem S8x128x256 .f32) (harg7 : arg7.IsWhole) (hopen : atOpening i) (hnot : ¬atClosing i)
    (x0 : Vec F S64x128 .f32) (x1 : Vec F S8x128x256 .f32) (x2 : Vec F S8x128x256 .f32) (x3 : Vec F S256 .f32) (y : S64x256.Idx) :
    ∃ pc ∈ (runOpening c i arg2 harg2 arg3 harg3 arg4 harg4 arg5 harg5 arg6 harg6 arg7 harg7 hopen hnot x0 x1 x2 x3).1, y ∈ pc.1.set :=
  View.cover_of_tiledL (runOpening c i arg2 harg2 arg3 harg3 arg4 harg4 arg5 harg5 arg6 harg6 arg7 harg7 hopen hnot x0 x1 x2 x3).1 S64x256.size (by sl_kernel_rfl) y

/-- What the opening point leaves in the output block: its stores read back. -/
def leftOpening (c : Dev nD) (i : grid0.Coords) (arg2 : Memref sig .tc .vmem S64x128 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S256 .f32) (harg5 : arg5.IsWhole) (arg6 : Memref sig .tc .vmem S64x256 .f32) (harg6 : arg6.IsWhole) (arg7 : Memref sig .tc .vmem S8x128x256 .f32) (harg7 : arg7.IsWhole) (hopen : atOpening i) (hnot : ¬atClosing i)
    (x0 : Vec F S64x128 .f32) (x1 : Vec F S8x128x256 .f32) (x2 : Vec F S8x128x256 .f32) (x3 : Vec F S256 .f32) : Vec F S64x256 .f32 :=
  outView.read (Elt F) (outView.writes (Elt F) outView.junk (runOpening c i arg2 harg2 arg3 harg3 arg4 harg4 arg5 harg5 arg6 harg6 arg7 harg7 hopen hnot x0 x1 x2 x3).1)

/-- The closing point's stores tile the output block. -/
theorem coverClosing (c : Dev nD) (i : grid0.Coords) (arg2 : Memref sig .tc .vmem S64x128 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S256 .f32) (harg5 : arg5.IsWhole) (arg6 : Memref sig .tc .vmem S64x256 .f32) (harg6 : arg6.IsWhole) (arg7 : Memref sig .tc .vmem S8x128x256 .f32) (harg7 : arg7.IsWhole) (hnot : ¬atOpening i) (hclose : atClosing i)
    (x0 : Vec F S64x128 .f32) (x1 : Vec F S8x128x256 .f32) (x2 : Vec F S8x128x256 .f32) (x3 : Vec F S256 .f32) (xo : Vec F S64x256 .f32) (y : S64x256.Idx) :
    ∃ pc ∈ (runClosing c i arg2 harg2 arg3 harg3 arg4 harg4 arg5 harg5 arg6 harg6 arg7 harg7 hnot hclose x0 x1 x2 x3 xo).1, y ∈ pc.1.set :=
  View.cover_of_tiledL (runClosing c i arg2 harg2 arg3 harg3 arg4 harg4 arg5 harg5 arg6 harg6 arg7 harg7 hnot hclose x0 x1 x2 x3 xo).1 S64x256.size (by sl_kernel_rfl) y

/-- What the closing point leaves in the output block holding `xo`: its stores read back. -/
def leftClosing (c : Dev nD) (i : grid0.Coords) (arg2 : Memref sig .tc .vmem S64x128 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S256 .f32) (harg5 : arg5.IsWhole) (arg6 : Memref sig .tc .vmem S64x256 .f32) (harg6 : arg6.IsWhole) (arg7 : Memref sig .tc .vmem S8x128x256 .f32) (harg7 : arg7.IsWhole) (hnot : ¬atOpening i) (hclose : atClosing i)
    (x0 : Vec F S64x128 .f32) (x1 : Vec F S8x128x256 .f32) (x2 : Vec F S8x128x256 .f32) (x3 : Vec F S256 .f32) (xo : Vec F S64x256 .f32) : Vec F S64x256 .f32 :=
  outView.read (Elt F) (outView.writes (Elt F) outView.junk (runClosing c i arg2 harg2 arg3 harg3 arg4 harg4 arg5 harg5 arg6 harg6 arg7 harg7 hnot hclose x0 x1 x2 x3 xo).1)

/-- THE OUTPUT BLOCK AFTER POINT `n`: at an even point what the opening run leaves; at an odd point what the closing
    run leaves over what the point before left (the block is not written back between the two). -/
def blockAfter (c : Dev nD) : (n : ℕ) → n < cfg0.N → Vec F S64x256 .f32
  | 0, hn => leftOpening c (grid0.coords ⟨0, hn⟩) (bufX ⟨0, hn⟩) (bufX_whole ⟨0, hn⟩) (bufW ⟨0, hn⟩) (bufW_whole ⟨0, hn⟩) (bufS ⟨0, hn⟩) (bufS_whole ⟨0, hn⟩) (bufB ⟨0, hn⟩) (bufB_whole ⟨0, hn⟩) (bufO ⟨0, hn⟩) (bufO_whole ⟨0, hn⟩) bufSm (Memref.isWhole_whole _)
      ((atOpening_iff ⟨0, hn⟩).mpr (Nat.zero_mod _)) (fun h => by have := (atClosing_iff ⟨0, hn⟩).mp h; dsimp only at this; omega)
      (iblk m c 0 ⟨0, hn⟩) (iblk m c 1 ⟨0, hn⟩) (iblk m c 2 ⟨0, hn⟩) (iblk m c 3 ⟨0, hn⟩)
  | n + 1, hn =>
    if h0 : (n + 1) % 2 = 0 then
      leftOpening c (grid0.coords ⟨n + 1, hn⟩) (bufX ⟨n + 1, hn⟩) (bufX_whole ⟨n + 1, hn⟩) (bufW ⟨n + 1, hn⟩) (bufW_whole ⟨n + 1, hn⟩) (bufS ⟨n + 1, hn⟩) (bufS_whole ⟨n + 1, hn⟩) (bufB ⟨n + 1, hn⟩) (bufB_whole ⟨n + 1, hn⟩) (bufO ⟨n + 1, hn⟩) (bufO_whole ⟨n + 1, hn⟩) bufSm (Memref.isWhole_whole _)
        ((atOpening_iff ⟨n + 1, hn⟩).mpr h0) (fun h => by have := (atClosing_iff ⟨n + 1, hn⟩).mp h; dsimp only at this; omega)
        (iblk m c 0 ⟨n + 1, hn⟩) (iblk m c 1 ⟨n + 1, hn⟩) (iblk m c 2 ⟨n + 1, hn⟩) (iblk m c 3 ⟨n + 1, hn⟩)
    else
      leftClosing c (grid0.coords ⟨n + 1, hn⟩) (bufX ⟨n + 1, hn⟩) (bufX_whole ⟨n + 1, hn⟩) (bufW ⟨n + 1, hn⟩) (bufW_whole ⟨n + 1, hn⟩) (bufS ⟨n + 1, hn⟩) (bufS_whole ⟨n + 1, hn⟩) (bufB ⟨n + 1, hn⟩) (bufB_whole ⟨n + 1, hn⟩) (bufO ⟨n + 1, hn⟩) (bufO_whole ⟨n + 1, hn⟩) bufSm (Memref.isWhole_whole _)
        (fun h => h0 ((atOpening_iff ⟨n + 1, hn⟩).mp h)) ((atClosing_iff ⟨n + 1, hn⟩).mpr (by dsimp only; omega))
        (iblk m c 0 ⟨n + 1, hn⟩) (iblk m c 1 ⟨n + 1, hn⟩) (iblk m c 2 ⟨n + 1, hn⟩) (iblk m c 3 ⟨n + 1, hn⟩) (blockAfter c n (Nat.lt_of_succ_lt hn))

/-- `blockAfter` at an even point. -/
theorem blockAfter_even (c : Dev nD) (t : Fin cfg0.N) (h0 : t.val % 2 = 0) (h1 : ¬t.val % 2 = 1) :
    blockAfter m c t.val t.isLt = leftOpening c (grid0.coords t) (bufX t) (bufX_whole t) (bufW t) (bufW_whole t) (bufS t) (bufS_whole t) (bufB t) (bufB_whole t) (bufO t) (bufO_whole t) bufSm (Memref.isWhole_whole _)
      ((atOpening_iff t).mpr h0) (fun h => h1 ((atClosing_iff t).mp h)) (iblk m c 0 t) (iblk m c 1 t) (iblk m c 2 t) (iblk m c 3 t) := by
  obtain ⟨n, hn⟩ := t
  cases n with
  | zero => exact rfl
  | succ n => exact (dif_pos h0).trans rfl

/-- `blockAfter` at an odd point: over what the point before left. -/
theorem blockAfter_odd (c : Dev nD) (t : Fin cfg0.N) (h0 : ¬t.val % 2 = 0) (h1 : t.val % 2 = 1) :
    blockAfter m c t.val t.isLt = leftClosing c (grid0.coords t) (bufX t) (bufX_whole t) (bufW t) (bufW_whole t) (bufS t) (bufS_whole t) (bufB t) (bufB_whole t) (bufO t) (bufO_whole t) bufSm (Memref.isWhole_whole _)
      (fun h => h0 ((atOpening_iff t).mp h)) ((atClosing_iff t).mpr h1) (iblk m c 0 t) (iblk m c 1 t) (iblk m c 2 t) (iblk m c 3 t)
      (blockAfter m c (t.val - 1) (Nat.lt_of_le_of_lt (Nat.sub_le _ _) t.isLt)) := by
  obtain ⟨n, hn⟩ := t
  cases n with
  | zero => exact absurd (Nat.zero_mod _) h0
  | succ n => exact (dif_neg h0).trans rfl

/-! ## The pipeline's proof data -/

/-- The arrays as the region finds them; after the body each input buffer at its block and the output buffer at
    `blockAfter`; between points the scratch and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_s (c : Dev nD) (t : Fin cfg0.N) : (dats m 0 c).after 2 t = iblk m c 2 t := by dsimp only [dats]
theorem after_b (c : Dev nD) (t : Fin cfg0.N) : (dats m 0 c).after 3 t = iblk m c 3 t := by dsimp only [dats]
theorem after_o (c : Dev nD) (t : Fin cfg0.N) : (dats m 0 c).after 4 t = blockAfter m c t.val t.isLt := by dsimp only [dats]

/-- Each input buffer holds its block when the body runs, fetched at that point or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_s (c : Dev nD) (t : Fin cfg0.N) (d) : (dats m 0 c).before 2 t d = iblk m c 2 t :=
  before0_2_of m (dats m 0 c) (A_eq m c 2) (after_s m c) t d
theorem before_b (c : Dev nD) (t : Fin cfg0.N) (d) : (dats m 0 c).before 3 t d = iblk m c 3 t :=
  before0_3_of m (dats m 0 c) (A_eq m c 3) (after_b m c) t d

/-- At an odd point the output buffer holds what the body left at the even point before it: the block was not
    written back between (write-backs happen after odd points only). -/
theorem before_o_odd (c : Dev nD) (t : Fin cfg0.N) (h1 : t.val % 2 = 1) (d) :
    (dats m 0 c).before 4 t d = blockAfter m c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (bufX t) fullShare ((dats m 0 c).before 0 t d))
    ∗ (∃ d, owns (c : Thread nD τ) (bufW t) fullShare ((dats m 0 c).before 1 t d))
    ∗ (∃ d, owns (c : Thread nD τ) (bufS t) fullShare ((dats m 0 c).before 2 t d))
    ∗ (∃ d, owns (c : Thread nD τ) (bufB t) fullShare ((dats m 0 c).before 3 t d))
    ∗ (∃ d, owns (c : Thread nD τ) (bufO t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (bufX t) fullShare ((dats m 0 c).after 0 t)
    ∗ owns (c : Thread nD τ) (bufW t) fullShare ((dats m 0 c).after 1 t)
    ∗ owns (c : Thread nD τ) (bufS t) fullShare ((dats m 0 c).after 2 t)
    ∗ owns (c : Thread nD τ) (bufB t) fullShare ((dats m 0 c).after 3 t)
    ∗ owns (c : Thread nD τ) (bufO t) fullShare ((dats m 0 c).after 4 t))

set_option maxHeartbeats 800000 in
/-- The body at any point: the input buffers hold their blocks; the parity of the point says which run applies; at an
    odd point the output buffer holds what the point before left; the scratch goes in and comes back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_s, before_b]
  rw [show (dats m 0 c).Φ t.succ = (dats m 0 c).Φ t.castSucc from rfl,
    show (dats m 0 c).owesAt () t.succ = (dats m 0 c).owesAt () t.castSucc from rfl,
    after_x, after_w, after_s, after_b, after_o]
  rw [show (dats m 0 c).Φ t.castSucc = Pipeline.ΦA spec0 c from rfl, kept_eq]
  have hN : t.val < 16 := lt_of_lt_of_eq t.isLt (show cfg0.N = 16 from N_0)
  by_cases h0 : t.val % 2 = 0
  · have h1 : ¬t.val % 2 = 1 := by omega
    rw [blockAfter_even m c t h0 h1]
    unfold leftOpening
    iintro ⟨⟨HS0, Hg⟩, Ho, ⟨%d0, H0⟩, ⟨%d1, H1⟩, ⟨%d2, H2⟩, ⟨%d3, H3⟩, ⟨%d4, H4⟩⟩
    iapply ((runOpening c (grid0.coords t) _ _ _ _ _ _ _ _ _ _ _ _ ((atOpening_iff t).mpr h0) (fun h => h1 ((atClosing_iff t).mp h)) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOpening c _ _ _ _ _ _ _ _ _ _ _ _ _ _ _ _ _ _ _)
  · have h1 : t.val % 2 = 1 := by omega
    rw [blockAfter_odd m c t h0 h1]
    simp only [before_o_odd m c t h1]
    unfold leftClosing
    iintro ⟨⟨HS0, Hg⟩, Ho, ⟨%d0, H0⟩, ⟨%d1, H1⟩, ⟨%d2, H2⟩, ⟨%d3, H3⟩, ⟨%d4, H4⟩⟩
    iapply ((runClosing c (grid0.coords t) _ _ _ _ _ _ _ _ _ _ _ _ (fun h => h0 ((atOpening_iff t).mp h)) ((atClosing_iff t).mpr h1) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, ⟨%e4, H4⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverClosing c _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any float values, from any memory with zero counters: every weakly fair execution of the program terminates,
    and every array of the pipeline ends at what the library computes from the proof data, every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.IdealBody.lean ====
/-
  The kernel's body at one grid point, and the pipeline's run, for any float values.

  The grid is 8 batch tiles by 2 tiles of the summed input axis; point t = 2·bi + ii. At a point the body
  (1) clears the output block when ii = 0, (2) writes the softmax of the spline block over its leading axis of
  extent 8 into the scratch, (3) runs eight trips, trip k adding to a carried [64,256] block the sum over the 128
  rows of the tile of logistic(x·w_k + s_k)·softmax_k, (4) adds the carried block to the output block and,
  (5) when ii = 1, adds the bias row. The output block therefore lives across the two points of a batch tile:
  the point with ii = 0 ("opening") starts it from zero whatever the buffer held, the point with ii = 1
  ("closing") continues from what the opening point left and is the one whose block is written back.
-/
import proofs.«181999_j73194832658946_1_alg».proof.Proof.Gen.KernelIdeal.Frame
import proofs.«181999_j73194832658946_1_alg».proof.Proof.Gen.KernelIdeal.Skeleton
import proofs.«181999_j73194832658946_1_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points open and which close a batch tile's accumulation -/

/-- The body's first test: the tile index of the summed axis is 0. -/
abbrev atOpening (i : grid0.Coords) : Prop :=
  (Scalar.cmpi .ne (Scalar.extui (Scalar.cmpi .eq (BitVec.ofNat 32 (i 1).val) 0#32)) 0#32) = 1#1
/-- It holds exactly at the even points. -/
theorem atOpening_iff : ∀ t : Fin cfg0.N, atOpening (grid0.coords t) ↔ t.val % 2 = 0 :=
  (by decide +kernel : ∀ t : Fin grid0.N, atOpening (grid0.coords t) ↔ t.val % 2 = 0)

/-- The body's last test: the tile index of the summed axis is 1, the last one. -/
abbrev atClosing (i : grid0.Coords) : Prop :=
  (Scalar.cmpi .ne (Scalar.extui (Scalar.cmpi .eq (BitVec.ofNat 32 (i 1).val) 1#32)) 0#32) = 1#1
/-- It holds exactly at the odd points. -/
theorem atClosing_iff : ∀ t : Fin cfg0.N, atClosing (grid0.coords t) ↔ t.val % 2 = 1 :=
  (by decide +kernel : ∀ t : Fin grid0.N, atClosing (grid0.coords t) ↔ t.val % 2 = 1)

/-! ## The buffers the body is handed at a point -/

abbrev bufX (t : Fin cfg0.N) : Memref sig .tc .vmem S64x128 .f32 := win0_0.stage (cfg0.slots t 0)
abbrev bufX_whole (t : Fin cfg0.N) : (bufX t).IsWhole := hstage0_0 ((cfg0.slots t 0).cast nbuf0_0)
abbrev bufW (t : Fin cfg0.N) : Memref sig .tc .vmem S8x128x256 .f32 := win0_1.stage (cfg0.slots t 1)
abbrev bufW_whole (t : Fin cfg0.N) : (bufW t).IsWhole := hstage0_1 ((cfg0.slots t 1).cast nbuf0_1)
abbrev bufS (t : Fin cfg0.N) : Memref sig .tc .vmem S8x128x256 .f32 := win0_2.stage (cfg0.slots t 2)
abbrev bufS_whole (t : Fin cfg0.N) : (bufS t).IsWhole := hstage0_2 ((cfg0.slots t 2).cast nbuf0_2)
abbrev bufB (t : Fin cfg0.N) : Memref sig .tc .vmem S256 .f32 := win0_3.stage (cfg0.slots t 3)
abbrev bufB_whole (t : Fin cfg0.N) : (bufB t).IsWhole := hstage0_3 ((cfg0.slots t 3).cast nbuf0_3)
abbrev bufO (t : Fin cfg0.N) : Memref sig .tc .vmem S64x256 .f32 := win0_4.stage (cfg0.slots t 4)
abbrev bufO_whole (t : Fin cfg0.N) : (bufO t).IsWhole := hstage0_4 ((cfg0.slots t 4).cast nbuf0_4)
/-- The softmax scratch: a whole scoped buffer of the kernel's own. -/
abbrev bufSm : Memref sig .tc .vmem S8x128x256 .f32 := Memref.whole cc0_scratch0
/-- One view of the output block's shape, through which its contents are stated (the choice does not matter). -/
abbrev outView : View sig .tc .vmem S64x256 .f32 := (Memref.whole cc0_stg4_0 : Memref sig .tc .vmem S64x256 .f32).view

/-- What the pipeline keeps for the body between points: the softmax scratch at some contents, and the generator
    register. -/
theorem kept_eq (c : Dev nD) :
    (Pipeline.ΦA spec0 c : sProp 𝕄)
      = iprop(iprop((∃ d, owns (c : Thread nD τ) bufSm fullShare d)) ∗ (∃ r, prngReg c r)) := by
  unfold Pipeline.ΦA; rw [scopedRest0_eq]; simp only [bufSm, owns_whole]; try rfl

/-! ## The body's run at an opening and at a closing point -/

set_option maxHeartbeats 1000000 in
/-- AT AN OPENING POINT, whatever the output buffer holds: the body runs, leaves the four input blocks as they
    were, the scratch at some contents, and the output buffer with the pieces the run finds written. -/
noncomputable def runOpening (c : Dev nD) (i : grid0.Coords) (arg2 : Memref sig .tc .vmem S64x128 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S256 .f32) (harg5 : arg5.IsWhole) (arg6 : Memref sig .tc .vmem S64x256 .f32) (harg6 : arg6.IsWhole) (arg7 : Memref sig .tc .vmem S8x128x256 .f32) (harg7 : arg7.IsWhole) (hopen : atOpening i) (hnot : ¬atClosing i)
    (x0 : Vec F S64x128 .f32) (x1 : Vec F S8x128x256 .f32) (x2 : Vec F S8x128x256 .f32) (x3 : Vec F S256 .f32) :
    { L : List (View.Piece (Elt F) S64x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ (∃ d, owns (c : Thread nD τ) arg7 fullShare d)) -∗ K ⟨⟩))
          ⊢ wp frame (wpE (defs₀ (F := F)) Variants.none c none) E (cc0__kanlayer_kernel i arg2 harg2 arg3 harg3 arg4 harg4 arg5 harg5 arg6 harg6 arg7 harg7) K } := by
  refine ⟨?_, fun E K => ?run⟩
  case run =>
    simp only [cc0__kanlayer_kernel_eq_skeleton]; unfold cc0__kanlayer_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hopen | exact hnot)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _, _; isplitr; swap; · iexact HS0
    ipureintro; rfl

set_option maxHeartbeats 1000000 in
/-- AT A CLOSING POINT, the output buffer holding the running block `xo`: the same, the pieces now depending on `xo`. -/
noncomputable def runClosing (c : Dev nD) (i : grid0.Coords) (arg2 : Memref sig .tc .vmem S64x128 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S256 .f32) (harg5 : arg5.IsWhole) (arg6 : Memref sig .tc .vmem S64x256 .f32) (harg6 : arg6.IsWhole) (arg7 : Memref sig .tc .vmem S8x128x256 .f32) (harg7 : arg7.IsWhole) (hnot : ¬atOpening i) (hclose : atClosing i)
    (x0 : Vec F S64x128 .f32) (x1 : Vec F S8x128x256 .f32) (x2 : Vec F S8x128x256 .f32) (x3 : Vec F S256 .f32) (xo : Vec F S64x256 .f32) :
    { L : List (View.Piece (Elt F) S64x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ (∃ d, owns (c : Thread nD τ) arg7 fullShare d)) -∗ K ⟨⟩))
          ⊢ wp frame (wpE (defs₀ (F := F)) Variants.none c none) E (cc0__kanlayer_kernel i arg2 harg2 arg3 harg3 arg4 harg4 arg5 harg5 arg6 harg6 arg7 harg7) K } := by
  refine ⟨?_, fun E K => ?run⟩
  case run =>
    simp only [cc0__kanlayer_kernel_eq_skeleton]; unfold cc0__kanlayer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hnot | exact hclose)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _, _; isplitr; swap; · iexact HS0
    ipureintro; rfl

/-! ## What a point leaves in the output block -/

/-- The opening point's stores tile the output block. -/
theorem coverOpening (c : Dev nD) (i : grid0.Coords) (arg2 : Memref sig .tc .vmem S64x128 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S256 .f32) (harg5 : arg5.IsWhole) (arg6 : Memref sig .tc .vmem S64x256 .f32) (harg6 : arg6.IsWhole) (arg7 : Memref sig .tc .vmem S8x128x256 .f32) (harg7 : arg7.IsWhole) (hopen : atOpening i) (hnot : ¬atClosing i)
    (x0 : Vec F S64x128 .f32) (x1 : Vec F S8x128x256 .f32) (x2 : Vec F S8x128x256 .f32) (x3 : Vec F S256 .f32) (y : S64x256.Idx) :
    ∃ pc ∈ (runOpening c i arg2 harg2 arg3 harg3 arg4 harg4 arg5 harg5 arg6 harg6 arg7 harg7 hopen hnot x0 x1 x2 x3).1, y ∈ pc.1.set :=
  View.cover_of_tiledL (runOpening c i arg2 harg2 arg3 harg3 arg4 harg4 arg5 harg5 arg6 harg6 arg7 harg7 hopen hnot x0 x1 x2 x3).1 S64x256.size (by sl_kernel_rfl) y

/-- What the opening point leaves in the output block: its stores read back. -/
def leftOpening (c : Dev nD) (i : grid0.Coords) (arg2 : Memref sig .tc .vmem S64x128 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S256 .f32) (harg5 : arg5.IsWhole) (arg6 : Memref sig .tc .vmem S64x256 .f32) (harg6 : arg6.IsWhole) (arg7 : Memref sig .tc .vmem S8x128x256 .f32) (harg7 : arg7.IsWhole) (hopen : atOpening i) (hnot : ¬atClosing i)
    (x0 : Vec F S64x128 .f32) (x1 : Vec F S8x128x256 .f32) (x2 : Vec F S8x128x256 .f32) (x3 : Vec F S256 .f32) : Vec F S64x256 .f32 :=
  outView.read (Elt F) (outView.writes (Elt F) outView.junk (runOpening c i arg2 harg2 arg3 harg3 arg4 harg4 arg5 harg5 arg6 harg6 arg7 harg7 hopen hnot x0 x1 x2 x3).1)

/-- The closing point's stores tile the output block. -/
theorem coverClosing (c : Dev nD) (i : grid0.Coords) (arg2 : Memref sig .tc .vmem S64x128 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S256 .f32) (harg5 : arg5.IsWhole) (arg6 : Memref sig .tc .vmem S64x256 .f32) (harg6 : arg6.IsWhole) (arg7 : Memref sig .tc .vmem S8x128x256 .f32) (harg7 : arg7.IsWhole) (hnot : ¬atOpening i) (hclose : atClosing i)
    (x0 : Vec F S64x128 .f32) (x1 : Vec F S8x128x256 .f32) (x2 : Vec F S8x128x256 .f32) (x3 : Vec F S256 .f32) (xo : Vec F S64x256 .f32) (y : S64x256.Idx) :
    ∃ pc ∈ (runClosing c i arg2 harg2 arg3 harg3 arg4 harg4 arg5 harg5 arg6 harg6 arg7 harg7 hnot hclose x0 x1 x2 x3 xo).1, y ∈ pc.1.set :=
  View.cover_of_tiledL (runClosing c i arg2 harg2 arg3 harg3 arg4 harg4 arg5 harg5 arg6 harg6 arg7 harg7 hnot hclose x0 x1 x2 x3 xo).1 S64x256.size (by sl_kernel_rfl) y

/-- What the closing point leaves in the output block holding `xo`: its stores read back. -/
def leftClosing (c : Dev nD) (i : grid0.Coords) (arg2 : Memref sig .tc .vmem S64x128 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S256 .f32) (harg5 : arg5.IsWhole) (arg6 : Memref sig .tc .vmem S64x256 .f32) (harg6 : arg6.IsWhole) (arg7 : Memref sig .tc .vmem S8x128x256 .f32) (harg7 : arg7.IsWhole) (hnot : ¬atOpening i) (hclose : atClosing i)
    (x0 : Vec F S64x128 .f32) (x1 : Vec F S8x128x256 .f32) (x2 : Vec F S8x128x256 .f32) (x3 : Vec F S256 .f32) (xo : Vec F S64x256 .f32) : Vec F S64x256 .f32 :=
  outView.read (Elt F) (outView.writes (Elt F) outView.junk (runClosing c i arg2 harg2 arg3 harg3 arg4 harg4 arg5 harg5 arg6 harg6 arg7 harg7 hnot hclose x0 x1 x2 x3 xo).1)

/-- THE OUTPUT BLOCK AFTER POINT `n`: at an even point what the opening run leaves; at an odd point what the closing
    run leaves over what the point before left (the block is not written back between the two). -/
def blockAfter (c : Dev nD) : (n : ℕ) → n < cfg0.N → Vec F S64x256 .f32
  | 0, hn => leftOpening c (grid0.coords ⟨0, hn⟩) (bufX ⟨0, hn⟩) (bufX_whole ⟨0, hn⟩) (bufW ⟨0, hn⟩) (bufW_whole ⟨0, hn⟩) (bufS ⟨0, hn⟩) (bufS_whole ⟨0, hn⟩) (bufB ⟨0, hn⟩) (bufB_whole ⟨0, hn⟩) (bufO ⟨0, hn⟩) (bufO_whole ⟨0, hn⟩) bufSm (Memref.isWhole_whole _)
      ((atOpening_iff ⟨0, hn⟩).mpr (Nat.zero_mod _)) (fun h => by have := (atClosing_iff ⟨0, hn⟩).mp h; dsimp only at this; omega)
      (iblk m c 0 ⟨0, hn⟩) (iblk m c 1 ⟨0, hn⟩) (iblk m c 2 ⟨0, hn⟩) (iblk m c 3 ⟨0, hn⟩)
  | n + 1, hn =>
    if h0 : (n + 1) % 2 = 0 then
      leftOpening c (grid0.coords ⟨n + 1, hn⟩) (bufX ⟨n + 1, hn⟩) (bufX_whole ⟨n + 1, hn⟩) (bufW ⟨n + 1, hn⟩) (bufW_whole ⟨n + 1, hn⟩) (bufS ⟨n + 1, hn⟩) (bufS_whole ⟨n + 1, hn⟩) (bufB ⟨n + 1, hn⟩) (bufB_whole ⟨n + 1, hn⟩) (bufO ⟨n + 1, hn⟩) (bufO_whole ⟨n + 1, hn⟩) bufSm (Memref.isWhole_whole _)
        ((atOpening_iff ⟨n + 1, hn⟩).mpr h0) (fun h => by have := (atClosing_iff ⟨n + 1, hn⟩).mp h; dsimp only at this; omega)
        (iblk m c 0 ⟨n + 1, hn⟩) (iblk m c 1 ⟨n + 1, hn⟩) (iblk m c 2 ⟨n + 1, hn⟩) (iblk m c 3 ⟨n + 1, hn⟩)
    else
      leftClosing c (grid0.coords ⟨n + 1, hn⟩) (bufX ⟨n + 1, hn⟩) (bufX_whole ⟨n + 1, hn⟩) (bufW ⟨n + 1, hn⟩) (bufW_whole ⟨n + 1, hn⟩) (bufS ⟨n + 1, hn⟩) (bufS_whole ⟨n + 1, hn⟩) (bufB ⟨n + 1, hn⟩) (bufB_whole ⟨n + 1, hn⟩) (bufO ⟨n + 1, hn⟩) (bufO_whole ⟨n + 1, hn⟩) bufSm (Memref.isWhole_whole _)
        (fun h => h0 ((atOpening_iff ⟨n + 1, hn⟩).mp h)) ((atClosing_iff ⟨n + 1, hn⟩).mpr (by dsimp only; omega))
        (iblk m c 0 ⟨n + 1, hn⟩) (iblk m c 1 ⟨n + 1, hn⟩) (iblk m c 2 ⟨n + 1, hn⟩) (iblk m c 3 ⟨n + 1, hn⟩) (blockAfter c n (Nat.lt_of_succ_lt hn))

/-- `blockAfter` at an even point. -/
theorem blockAfter_even (c : Dev nD) (t : Fin cfg0.N) (h0 : t.val % 2 = 0) (h1 : ¬t.val % 2 = 1) :
    blockAfter m c t.val t.isLt = leftOpening c (grid0.coords t) (bufX t) (bufX_whole t) (bufW t) (bufW_whole t) (bufS t) (bufS_whole t) (bufB t) (bufB_whole t) (bufO t) (bufO_whole t) bufSm (Memref.isWhole_whole _)
      ((atOpening_iff t).mpr h0) (fun h => h1 ((atClosing_iff t).mp h)) (iblk m c 0 t) (iblk m c 1 t) (iblk m c 2 t) (iblk m c 3 t) := by
  obtain ⟨n, hn⟩ := t
  cases n with
  | zero => exact rfl
  | succ n => exact (dif_pos h0).trans rfl

/-- `blockAfter` at an odd point: over what the point before left. -/
theorem blockAfter_odd (c : Dev nD) (t : Fin cfg0.N) (h0 : ¬t.val % 2 = 0) (h1 : t.val % 2 = 1) :
    blockAfter m c t.val t.isLt = leftClosing c (grid0.coords t) (bufX t) (bufX_whole t) (bufW t) (bufW_whole t) (bufS t) (bufS_whole t) (bufB t) (bufB_whole t) (bufO t) (bufO_whole t) bufSm (Memref.isWhole_whole _)
      (fun h => h0 ((atOpening_iff t).mp h)) ((atClosing_iff t).mpr h1) (iblk m c 0 t) (iblk m c 1 t) (iblk m c 2 t) (iblk m c 3 t)
      (blockAfter m c (t.val - 1) (Nat.lt_of_le_of_lt (Nat.sub_le _ _) t.isLt)) := by
  obtain ⟨n, hn⟩ := t
  cases n with
  | zero => exact absurd (Nat.zero_mod _) h0
  | succ n => exact (dif_neg h0).trans rfl

/-! ## The pipeline's proof data -/

/-- The arrays as the region finds them; after the body each input buffer at its block and the output buffer at
    `blockAfter`; between points the scratch and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_s (c : Dev nD) (t : Fin cfg0.N) : (dats m 0 c).after 2 t = iblk m c 2 t := by dsimp only [dats]
theorem after_b (c : Dev nD) (t : Fin cfg0.N) : (dats m 0 c).after 3 t = iblk m c 3 t := by dsimp only [dats]
theorem after_o (c : Dev nD) (t : Fin cfg0.N) : (dats m 0 c).after 4 t = blockAfter m c t.val t.isLt := by dsimp only [dats]

/-- Each input buffer holds its block when the body runs, fetched at that point or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_s (c : Dev nD) (t : Fin cfg0.N) (d) : (dats m 0 c).before 2 t d = iblk m c 2 t :=
  before0_2_of m (dats m 0 c) (A_eq m c 2) (after_s m c) t d
theorem before_b (c : Dev nD) (t : Fin cfg0.N) (d) : (dats m 0 c).before 3 t d = iblk m c 3 t :=
  before0_3_of m (dats m 0 c) (A_eq m c 3) (after_b m c) t d

/-- At an odd point the output buffer holds what the body left at the even point before it: the block was not
    written back between (write-backs happen after odd points only). -/
theorem before_o_odd (c : Dev nD) (t : Fin cfg0.N) (h1 : t.val % 2 = 1) (d) :
    (dats m 0 c).before 4 t d = blockAfter m c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (bufX t) fullShare ((dats m 0 c).before 0 t d))
    ∗ (∃ d, owns (c : Thread nD τ) (bufW t) fullShare ((dats m 0 c).before 1 t d))
    ∗ (∃ d, owns (c : Thread nD τ) (bufS t) fullShare ((dats m 0 c).before 2 t d))
    ∗ (∃ d, owns (c : Thread nD τ) (bufB t) fullShare ((dats m 0 c).before 3 t d))
    ∗ (∃ d, owns (c : Thread nD τ) (bufO t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (bufX t) fullShare ((dats m 0 c).after 0 t)
    ∗ owns (c : Thread nD τ) (bufW t) fullShare ((dats m 0 c).after 1 t)
    ∗ owns (c : Thread nD τ) (bufS t) fullShare ((dats m 0 c).after 2 t)
    ∗ owns (c : Thread nD τ) (bufB t) fullShare ((dats m 0 c).after 3 t)
    ∗ owns (c : Thread nD τ) (bufO t) fullShare ((dats m 0 c).after 4 t))

set_option maxHeartbeats 800000 in
/-- The body at any point: the input buffers hold their blocks; the parity of the point says which run applies; at an
    odd point the output buffer holds what the point before left; the scratch goes in and comes back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_s, before_b]
  rw [show (dats m 0 c).Φ t.succ = (dats m 0 c).Φ t.castSucc from rfl,
    show (dats m 0 c).owesAt () t.succ = (dats m 0 c).owesAt () t.castSucc from rfl,
    after_x, after_w, after_s, after_b, after_o]
  rw [show (dats m 0 c).Φ t.castSucc = Pipeline.ΦA spec0 c from rfl, kept_eq]
  have hN : t.val < 16 := lt_of_lt_of_eq t.isLt (show cfg0.N = 16 from N_0)
  by_cases h0 : t.val % 2 = 0
  · have h1 : ¬t.val % 2 = 1 := by omega
    rw [blockAfter_even m c t h0 h1]
    unfold leftOpening
    iintro ⟨⟨HS0, Hg⟩, Ho, ⟨%d0, H0⟩, ⟨%d1, H1⟩, ⟨%d2, H2⟩, ⟨%d3, H3⟩, ⟨%d4, H4⟩⟩
    iapply ((runOpening c (grid0.coords t) _ _ _ _ _ _ _ _ _ _ _ _ ((atOpening_iff t).mpr h0) (fun h => h1 ((atClosing_iff t).mp h)) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOpening c _ _ _ _ _ _ _ _ _ _ _ _ _ _ _ _ _ _ _)
  · have h1 : t.val % 2 = 1 := by omega
    rw [blockAfter_odd m c t h0 h1]
    simp only [before_o_odd m c t h1]
    unfold leftClosing
    iintro ⟨⟨HS0, Hg⟩, Ho, ⟨%d0, H0⟩, ⟨%d1, H1⟩, ⟨%d2, H2⟩, ⟨%d3, H3⟩, ⟨%d4, H4⟩⟩
    iapply ((runClosing c (grid0.coords t) _ _ _ _ _ _ _ _ _ _ _ _ (fun h => h0 ((atOpening_iff t).mp h)) ((atClosing_iff t).mpr h1) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, ⟨%e4, H4⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverClosing c _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any float values, from any memory with zero counters: every weakly fair execution of the program terminates,
    and every array of the pipeline ends at what the library computes from the proof data, every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.IdealValue.lean ====
/-
  What a grid point leaves in the output block, as a value, for any float values.

  At one point the eight trips carry a [64,256] block: trip k adds to it the payload's sum over the tile's 128 rows
  of logistic(x·w_k + s_k)·softmax_k, where w_k, s_k and softmax_k are slab k (of extent 1 on the leading axis) of the
  weight block, of the spline block and of the softmax of the spline block. Writing tileSum for the block carried
  out of the last trip: an opening point leaves 0-block + tileSum, whatever the buffer held before; a closing point
  leaves ((what the buffer held) + tileSum) + bias row.
-/
import proofs.«181999_j73194832658946_1_alg».proof.Proof.IdealBody
import Idealize.ShloMosaic.Lib.Pipeline.Value
import Idealize.ShloMosaic.Lib.Tactic

set_option maxRecDepth 16384

noncomputable section

namespace Cert.KernelIdeal.BlockValue

open Cert.KernelIdeal Cert.KernelIdeal.Gen Cert.KernelIdeal.Body
open Idealize.ShloMosaic Idealize.ShloMosaic.TcCoe Idealize.SL.Sem Idealize.ShloMosaic.Tactic
open Idealize.ShloMosaic.Pipeline (Dat)

variable {F : FTy → Type} [FloatOps F]

theorem origin1 : (![0] : Fin 1 → Nat) = fun _ => 0 := funext fun a => by fin_cases a <;> rfl
theorem origin2 : (![0, 0] : Fin 2 → Nat) = fun _ => 0 := funext fun a => by fin_cases a <;> rfl
theorem origin3 : (![0, 0, 0] : Fin 3 → Nat) = fun _ => 0 := funext fun a => by fin_cases a <;> rfl

/-- Slab `k` of an [8,128,256] block: the [1,128,256] piece trip `k` loads. -/
def slab (X : Vec F S8x128x256 .f32) (k : Fin k0_t1_loop.trips) : Vec F S1x128x256 .f32 :=
  View.ld X (Rect.unit (s := S8x128x256) (k0_off1 k) S1x128x256.size (k0_off1_inb k))

/-- One trip's new carried block from the old one: the payload on slab `k` of the weights, of the spline block and of
    its softmax. -/
def tripValue (x0 : Vec F S64x128 .f32) (x1 x2 : Vec F S8x128x256 .f32) (k : Fin k0_t1_loop.trips) (acc : FVec F S64x256 .f32) :
    FVec F S64x256 .f32 :=
  k0_pay4 x0 acc (slab x1 k) (slab x2 k) (slab (k0_pay2 x2) k)

/-- The carried block before trip `n`. -/
def carriedAt (x0 : Vec F S64x128 .f32) (x1 x2 : Vec F S8x128x256 .f32) : ℕ → FVec F S64x256 .f32
  | 0 => k0_pay3
  | n + 1 => if h : n < k0_t1_loop.trips then tripValue x0 x1 x2 ⟨n, h⟩ (carriedAt x0 x1 x2 n) else carriedAt x0 x1 x2 n

/-- The block carried out of the last trip. -/
def tileSum (x0 : Vec F S64x128 .f32) (x1 x2 : Vec F S8x128x256 .f32) : FVec F S64x256 .f32 :=
  carriedAt x0 x1 x2 k0_t1_loop.trips

/-- What one trip of the loop yields, read off the run of its region. -/
theorem trip_eq (𝒱 : Variants) (c : Dev nD) (bd : Option 𝒱.V) (i : grid0.Coords) (arg2 : Memref sig .tc .vmem S64x128 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S256 .f32) (harg5 : arg5.IsWhole) (arg6 : Memref sig .tc .vmem S64x256 .f32) (harg6 : arg6.IsWhole) (arg7 : Memref sig .tc .vmem S8x128x256 .f32) (harg7 : arg7.IsWhole) (v19 : Vec F S64x128 .f32) (X_arg3 : BufTy.Contents (Elt F) arg3.view.ty) (X_arg4 : BufTy.Contents (Elt F) arg4.view.ty) (X_arg7 : BufTy.Contents (Elt F) arg7.view.ty) (k : Fin k0_t1_loop.trips) (acc : FVec F S64x256 .f32) :
    tripR_k0_t1 (F := F) 𝒱 c bd i arg2 harg2 arg3 harg3 arg4 harg4 arg5 harg5 arg6 harg6 arg7 harg7 v19 X_arg3 X_arg4 X_arg7 k acc
      = k0_pay4 v19 acc (slab (arg3.view.read (Elt F) X_arg3) k) (slab (arg4.view.read (Elt F) X_arg4) k) (slab (arg7.view.read (Elt F) X_arg7) k) := by
  unfold tripR_k0_t1 trip_k0_t1
  dsimp only
  sl_unfold_words
  rfl

/-- The loop's carried block before trip `n`, as the run states it over the buffers' contents, is `carriedAt`: the
    weight and spline buffers hold their blocks, the scratch holds the softmax of the spline block. -/
theorem carried_eq (c : Dev nD) (i : grid0.Coords) (arg2 : Memref sig .tc .vmem S64x128 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S256 .f32) (harg5 : arg5.IsWhole) (arg6 : Memref sig .tc .vmem S64x256 .f32) (harg6 : arg6.IsWhole) (arg7 : Memref sig .tc .vmem S8x128x256 .f32) (harg7 : arg7.IsWhole)
    (x0 : Vec F S64x128 .f32) (x1 x2 : Vec F S8x128x256 .f32) (n : ℕ) :
    st_k0_t1 (F := F) Variants.none c none i arg2 harg2 arg3 harg3 arg4 harg4 arg5 harg5 arg6 harg6 arg7 harg7 x0 (harg3.unread x1) (harg4.unread x2)
        (arg7.view.writes (Elt F) arg7.view.junk [⟨Rect.unit ![0, 0, 0] S8x128x256.size inb_S8x128x256_S8x128x256_0_0_0, k0_pay2 x2⟩]) k0_pay3 n
      = carriedAt x0 x1 x2 n := by
  induction n with
  | zero => rfl
  | succ n ih =>
    rw [st_k0_t1.eq_2, carriedAt]
    unfold st_k0_t1Step
    by_cases h : n < k0_t1_loop.trips
    · rw [dif_pos h, dif_pos h, ih, trip_eq]
      unfold tripValue
      rw [harg3.read_unread, harg4.read_unread,
        View.read_writes_eq_canon _ _ _ (fun y => ⟨_, List.mem_singleton_self _, View.mem_set_unit_zero origin3 inb_S8x128x256_S8x128x256_0_0_0 y⟩),
        View.canon_unit_zero origin3]
    · rw [dif_neg h, dif_neg h, ih]

/-- AN OPENING POINT leaves the zero block plus the tile's sum, whatever the output buffer held. -/
theorem leftOpening_eq (c : Dev nD) (i : grid0.Coords) (arg2 : Memref sig .tc .vmem S64x128 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S256 .f32) (harg5 : arg5.IsWhole) (arg6 : Memref sig .tc .vmem S64x256 .f32) (harg6 : arg6.IsWhole) (arg7 : Memref sig .tc .vmem S8x128x256 .f32) (harg7 : arg7.IsWhole) (hopen : atOpening i) (hnot : ¬atClosing i)
    (x0 : Vec F S64x128 .f32) (x1 : Vec F S8x128x256 .f32) (x2 : Vec F S8x128x256 .f32) (x3 : Vec F S256 .f32) :
    leftOpening c i arg2 harg2 arg3 harg3 arg4 harg4 arg5 harg5 arg6 harg6 arg7 harg7 hopen hnot x0 x1 x2 x3
      = k0_pay5 (tileSum x0 x1 x2) k0_pay1 := by
  unfold leftOpening
  rw [View.read_writes_eq_canon _ _ _ (coverOpening c i arg2 harg2 arg3 harg3 arg4 harg4 arg5 harg5 arg6 harg6 arg7 harg7 hopen hnot x0 x1 x2 x3)]
  unfold runOpening
  dsimp only
  sl_unfold_words
  rw [View.canon_cons_unit_zero (S := S64x256) origin2, View.readCov_unit_zero (S := S64x256) _ origin2]
  simp only [View.readAt_eq_ld, harg2.read_unread, harg4.read_unread, View.ld_unit_zero (S := S64x128) origin2,
    View.ld_unit_zero (S := S8x128x256) origin3]
  rw [carried_eq]
  rfl

/-- A CLOSING POINT leaves what the buffer held, plus the tile's sum, plus the bias row. -/
theorem leftClosing_eq (c : Dev nD) (i : grid0.Coords) (arg2 : Memref sig .tc .vmem S64x128 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S256 .f32) (harg5 : arg5.IsWhole) (arg6 : Memref sig .tc .vmem S64x256 .f32) (harg6 : arg6.IsWhole) (arg7 : Memref sig .tc .vmem S8x128x256 .f32) (harg7 : arg7.IsWhole) (hnot : ¬atOpening i) (hclose : atClosing i)
    (x0 : Vec F S64x128 .f32) (x1 : Vec F S8x128x256 .f32) (x2 : Vec F S8x128x256 .f32) (x3 : Vec F S256 .f32) (xo : Vec F S64x256 .f32) :
    leftClosing c i arg2 harg2 arg3 harg3 arg4 harg4 arg5 harg5 arg6 harg6 arg7 harg7 hnot hclose x0 x1 x2 x3 xo
      = k0_pay6 (k0_pay5 (tileSum x0 x1 x2) xo) x3 := by
  unfold leftClosing
  rw [View.read_writes_eq_canon _ _ _ (coverClosing c i arg2 harg2 arg3 harg3 arg4 harg4 arg5 harg5 arg6 harg6 arg7 harg7 hnot hclose x0 x1 x2 x3 xo)]
  unfold runClosing
  dsimp only
  sl_unfold_words
  rw [View.canon_cons_unit_zero (S := S64x256) origin2, View.readCov_unit_zero (S := S64x256) _ origin2]
  simp only [View.readAt_eq_ld, harg2.read_unread, harg4.read_unread, harg5.read_unread, harg6.read_unread,
    View.ld_unit_zero (S := S64x128) origin2, View.ld_unit_zero (S := S8x128x256) origin3,
    View.ld_unit_zero (S := S64x256) origin2, View.ld_unit_zero (S := S256) origin1]
  rw [carried_eq]
  rfl

variable (m : (ℓ : Loc nD τ sig) → Buf (Elt F) ℓ)

/-- THE BLOCK WRITTEN BACK after an odd point `t`: zero, plus the sum of the tile of point `t - 1`, plus the sum of the
    tile of point `t`, plus the bias row — each sum over that point's blocks of the arguments. -/
theorem blockAfter_closing (c : Dev nD) (t : Fin cfg0.N) (h1 : t.val % 2 = 1) :
    blockAfter m c t.val t.isLt
      = k0_pay6 (k0_pay5 (tileSum (iblk m c 0 t) (iblk m c 1 t) (iblk m c 2 t))
          (k0_pay5 (tileSum (iblk m c 0 ⟨t.val - 1, Nat.lt_of_le_of_lt (Nat.sub_le _ _) t.isLt⟩)
              (iblk m c 1 ⟨t.val - 1, Nat.lt_of_le_of_lt (Nat.sub_le _ _) t.isLt⟩)
              (iblk m c 2 ⟨t.val - 1, Nat.lt_of_le_of_lt (Nat.sub_le _ _) t.isLt⟩)) k0_pay1))
          (iblk m c 3 t) := by
  have h0 : ¬t.val % 2 = 0 := by omega
  rw [blockAfter_odd m c t h0 h1, leftClosing_eq]
  rw [show blockAfter m c (t.val - 1) (Nat.lt_of_le_of_lt (Nat.sub_le _ _) t.isLt) = _ from
    blockAfter_even m c ⟨t.val - 1, Nat.lt_of_le_of_lt (Nat.sub_le _ _) t.isLt⟩ (by dsimp only; omega) (by dsimp only; omega),
    leftOpening_eq]

end Cert.KernelIdeal.BlockValue

end
-- ==== Proof.IdealEntry.lean ====
/-
  The body's arithmetic read at one entry, over the extended reals.

  A block's entry (p, q) after one trip is the carried entry plus the sum over the tile's 128 rows r of
  logistic(x[p,r]·w[r,q] + s[r,q])·σ[r,q], with w, s, σ one slab of the weights, of the spline block and of its softmax;
  the softmax of the spline block at (k, r, q) is exp(s[k,r,q] − M[r,q]) over the sum over k' of exp(s[k',r,q] − M[r,q]),
  M[r,q] the larger of −∞ and the maximum over k' of s[k',r,q].
-/
import proofs.«181999_j73194832658946_1_alg».proof.Proof.IdealValue
import Idealize.ShloMosaic.Lib.ValueIdx
import Idealize.ShloMosaic.Lib.Pipeline.Value
import Idealize.ShloMosaic.PureOps.Ideal.Laws

set_option maxRecDepth 16384

noncomputable section

namespace Cert.KernelIdeal.Entry

open Cert.KernelIdeal Cert.KernelIdeal.Gen Cert.KernelIdeal.Body Cert.KernelIdeal.BlockValue
open Idealize.ShloMosaic Idealize.ShloMosaic.ValueIdx

/-! ## Layout operations of the payload, read at coordinates -/

section Layout
variable {α : Type}

/-- A [64,128] block given a trailing unit axis and copied along 256 lanes reads (p, r, q) at (p, r). -/
theorem rowsAlongLanes_apply (x : S64x128.Idx → α) (h1 : S64x128.ShapeCasts S64x128x1) (h2 : S64x128x1.Broadcasts S64x128x256)
    (p : Fin 64) (r : Fin 128) (q : Fin 256) :
    broadcastTo S64x128x256 (shapeCast S64x128x1 x h1) h2 (ix3 p r q) = x (ix2 p r) := by
  refine (broadcastTo_apply _ h2 (ix3 p r q) (ix3 p r (0 : Fin 1)) ?_).trans ?_
  · intro a
    match a with
    | ⟨0, _⟩ => rfl
    | ⟨1, _⟩ => rfl
    | ⟨2, _⟩ => rfl
  · exact shapeCast_apply x h1 (ix3 p r (0 : Fin 1)) (ix2 p r) (by
      rw [Shape.rowMajor_val_two, Shape.rowMajor_val_three]; simp)

/-- A [1,128,256] slab viewed [128,256], viewed [1,128,256] again and copied along 64 rows reads (p, r, q) at (0, r, q). -/
theorem slabAlongRows_apply (x : S1x128x256.Idx → α) (h1 : S1x128x256.ShapeCasts S128x256) (h2 : S128x256.ShapeCasts S1x128x256)
    (h3 : S1x128x256.Broadcasts S64x128x256) (p : Fin 64) (r : Fin 128) (q : Fin 256) :
    broadcastTo S64x128x256 (shapeCast S1x128x256 (shapeCast S128x256 x h1) h2) h3 (ix3 p r q) = x (ix3 (0 : Fin 1) r q) := by
  rw [shapeCast_shapeCast]
  refine broadcastTo_apply _ h3 (ix3 p r q) (ix3 (0 : Fin 1) r q) ?_
  intro a
  match a with
  | ⟨0, _⟩ => rfl
  | ⟨1, _⟩ => rfl
  | ⟨2, _⟩ => rfl

end Layout

/-! ## The softmax over the leading axis -/

section Layout2
variable {α : Type}

/-- A [128,256] plane given a leading unit axis and copied along the 8 slabs reads (k, r, q) at (r, q). -/
theorem planeAlongSlabs_apply (x : S128x256.Idx → α) (h1 : S128x256.ShapeCasts S1x128x256) (h2 : S1x128x256.Broadcasts S8x128x256)
    (k : Fin 8) (r : Fin 128) (q : Fin 256) :
    broadcastTo S8x128x256 (shapeCast S1x128x256 x h1) h2 (ix3 k r q) = x (ix2 r q) := by
  refine (broadcastTo_apply _ h2 (ix3 k r q) (ix3 (0 : Fin 1) r q) ?_).trans ?_
  · intro a
    match a with
    | ⟨0, _⟩ => rfl
    | ⟨1, _⟩ => rfl
    | ⟨2, _⟩ => rfl
  · exact shapeCast_apply x h1 (ix3 (0 : Fin 1) r q) (ix2 r q) (by
      rw [Shape.rowMajor_val_two, Shape.rowMajor_val_three]; simp)

end Layout2

/-- The entry of the leading axis's reduction at (r, q) that slab k' contributes. -/
theorem liftSlab (h : S8x128x256.Reduces [0] S128x256) (r : Fin 128) (q : Fin 256) (k' : Fin 8) :
    h.lift (ix2 r q) k' = ix3 k' r q := by
  funext a
  match a with
  | ⟨0, _⟩ => rfl
  | ⟨1, _⟩ => rfl
  | ⟨2, _⟩ => rfl

/-- The softmax's shift at (r, q): the larger of −∞ and the maximum over the eight slabs. -/
def shiftOf (v : Vec Ideal S8x128x256 .f32) (r : Fin 128) (q : Fin 256) : EReal :=
  max (Ideal.ofBits .f32 0xFF800000#32)
    ((Finset.univ : Finset (Fin 8)).fold max (Ideal.ofBits .f32 0xFF800000#32) fun k' => v (ix3 k' r q))

/-- The softmax's denominator at (r, q). -/
def normOf (v : Vec Ideal S8x128x256 .f32) (r : Fin 128) (q : Fin 256) : EReal :=
  ∑ k' : Fin 8, Ideal.exp (v (ix3 k' r q) - shiftOf v r q)

/-- The kernel's maximum over the slabs, made a plane and copied back along them, is the shift. -/
theorem shiftPlane_apply (v : FVec Ideal S8x128x256 .f32) (h : S8x128x256.Reduces [0] S128x256)
    (hacc : (0xFF800000#32 : BitVec 32) = 0xFF800000#32)
    (h1 : S128x256.ShapeCasts S1x128x256) (h2 : S1x128x256.Broadcasts S8x128x256) (k : Fin 8) (r : Fin 128) (q : Fin 256) :
    broadcastTo S8x128x256 (shapeCast S1x128x256
        (maximumf (broadcast S128x256 (Scalar.ofBits (F := Ideal) .f32 0xFF800000#32))
          (multiReduction .maximumf [0] S128x256 v 0xFF800000#32 h (.inl rfl) hacc)) h1) h2 (ix3 k r q)
      = shiftOf v r q := by
  rw [planeAlongSlabs_apply, maximumf_apply]
  unfold shiftOf
  refine congrArg (max _) ?_
  refine (Ideal.multiReduction_maximumf_single v _ h (.inl rfl) hacc (ix2 r q)).trans ?_
  refine congrArg (fun f => (Finset.univ : Finset (Fin 8)).fold max (Ideal.ofBits .f32 0xFF800000#32) f) (funext fun (k' : Fin 8) => ?_)
  show v (h.lift (ix2 r q) k') = v (ix3 k' r q)
  rw [liftSlab]

/-- The softmax payload at entry (k, r, q). -/
theorem pay2_apply (v3 : Vec Ideal S8x128x256 .f32) (k : Fin 8) (r : Fin 128) (q : Fin 256) :
    k0_pay2 v3 (ix3 k r q) = Ideal.div (Ideal.exp (v3 (ix3 k r q) - shiftOf v3 r q)) (normOf v3 r q) := by
  unfold k0_pay2
  dsimp only
  simp only [shapeCast_self]
  rw [divf_apply]
  have hexp : ∀ k' : Fin 8, (exp (subf v3 (broadcastTo S8x128x256 (shapeCast S1x128x256
        (maximumf (broadcast S128x256 (Scalar.ofBits (F := Ideal) .f32 0xFF800000#32))
          (multiReduction .maximumf [0] S128x256 v3 0xFF800000#32 reduces_S8x128x256_S128x256 (.inl rfl) rfl))
        shapeCasts_S128x256_S1x128x256) broadcasts_S1x128x256_S8x128x256)) : FVec Ideal S8x128x256 .f32) (ix3 k' r q)
      = Ideal.exp (v3 (ix3 k' r q) - shiftOf v3 r q) := by
    intro k'
    show FloatOps.exp _ = _
    rw [Ideal.exp_def, subf_apply, shiftPlane_apply]
  rw [hexp k]
  refine congrArg (Ideal.div _) ?_
  rw [planeAlongSlabs_apply]
  refine (Ideal.multiReduction_add_single _ _ _ _ _ (ix2 r q)).trans ?_
  unfold normOf
  refine Finset.sum_congr rfl fun (k' : Fin 8) _ => ?_
  rw [liftSlab]
  exact hexp k'

/-! ## One trip -/

/-- The payload of a trip at entry (p, q): the carried entry plus the sum over the tile's rows. -/
theorem pay4_apply (v19 : Vec Ideal S64x128 .f32) (arg9 : FVec Ideal S64x256 .f32) (v31 v34 v37 : Vec Ideal S1x128x256 .f32)
    (p : Fin 64) (q : Fin 256) :
    k0_pay4 v19 arg9 v31 v34 v37 (ix2 p q)
      = arg9 (ix2 p q) + ∑ r : Fin 128,
          Ideal.logistic (v19 (ix2 p r) * v31 (ix3 (0 : Fin 1) r q) + v34 (ix3 (0 : Fin 1) r q)) * v37 (ix3 (0 : Fin 1) r q) := by
  unfold k0_pay4
  dsimp only
  rw [addf_apply]
  refine congrArg (arg9 (ix2 p q) + ·) ?_
  refine (Ideal.multiReduction_add_single _ _ _ _ _ (ix2 p q)).trans ?_
  refine Finset.sum_congr rfl fun (r : Fin 128) _ => ?_
  have hl : (reduces_S64x128x256_S64x256).lift (ix2 p q) r = ix3 p r q := by
    funext a
    match a with
    | ⟨0, _⟩ => rfl
    | ⟨1, _⟩ => rfl
    | ⟨2, _⟩ => rfl
  rw [hl]
  simp only [mulf_apply, addf_apply, logistic, Ideal.logistic_def, rowsAlongLanes_apply, slabAlongRows_apply]

/-- The loop runs eight trips. -/
theorem trips_eq : k0_t1_loop.trips = 8 := by decide

/-- Slab `k` at (0, r, q) is the block at (k, r, q). -/
theorem slab_apply {F : FTy → Type} [FloatOps F] (X : Vec F S8x128x256 .f32) (k : Fin k0_t1_loop.trips) (r : Fin 128) (q : Fin 256) :
    slab X k (ix3 (0 : Fin 1) r q) = X (ix3 (Fin.cast trips_eq k) r q) := by
  unfold slab
  show X ((Rect.unit (s := S8x128x256) (k0_off1 k) S1x128x256.size (k0_off1_inb k)).idx (ix3 (0 : Fin 1) r q)) = _
  refine congrArg X (funext fun a => Fin.ext ?_)
  match a with
  | ⟨0, _⟩ => show k0_off1 k 0 + 1 * 0 = k.val; rw [k0_off1_eq]; simp
  | ⟨1, _⟩ => show k0_off1 k 1 + 1 * r.val = r.val; rw [k0_off1_eq]; simp
  | ⟨2, _⟩ => show k0_off1 k 2 + 1 * q.val = q.val; rw [k0_off1_eq]; simp

/-- What trip k̂ adds to entry (p, q): the sum over the tile's rows of logistic(x·w + s)·softmax. -/
def tripTerm (x0 : Vec Ideal S64x128 .f32) (x1 x2 : Vec Ideal S8x128x256 .f32) (p : Fin 64) (q : Fin 256) (k : Fin 8) : EReal :=
  ∑ r : Fin 128, Ideal.logistic (x0 (ix2 p r) * x1 (ix3 k r q) + x2 (ix3 k r q))
    * Ideal.div (Ideal.exp (x2 (ix3 k r q) - shiftOf x2 r q)) (normOf x2 r q)

theorem tripValue_apply (x0 : Vec Ideal S64x128 .f32) (x1 x2 : Vec Ideal S8x128x256 .f32) (k : Fin k0_t1_loop.trips)
    (acc : FVec Ideal S64x256 .f32) (p : Fin 64) (q : Fin 256) :
    tripValue x0 x1 x2 k acc (ix2 p q) = acc (ix2 p q) + tripTerm x0 x1 x2 p q (Fin.cast trips_eq k) := by
  unfold tripValue tripTerm
  rw [pay4_apply]
  simp only [slab_apply, pay2_apply]

/-- The carried entry before trip `n`: zero plus what the trips before `n` added. -/
theorem carriedAt_apply (x0 : Vec Ideal S64x128 .f32) (x1 x2 : Vec Ideal S8x128x256 .f32) (p : Fin 64) (q : Fin 256) (n : ℕ) :
    carriedAt x0 x1 x2 n (ix2 p q)
      = 0 + ∑ k ∈ Finset.range n, if h : k < 8 then tripTerm x0 x1 x2 p q ⟨k, h⟩ else 0 := by
  induction n with
  | zero =>
    show Ideal.ofBits .f32 0x00000000#32 = _
    rw [Ideal.ofBits_zero_f32]; simp
  | succ n ih =>
    rw [carriedAt, Finset.sum_range_succ, ← add_assoc, ← ih]
    by_cases h : n < k0_t1_loop.trips
    · have h8 : n < 8 := by rw [trips_eq] at h; exact h
      rw [dif_pos h, dif_pos h8, tripValue_apply]
      rfl
    · have h8 : ¬ n < 8 := by rw [trips_eq] at h; exact h
      rw [dif_neg h, dif_neg h8, add_zero]

/-- The tile's sum at entry (p, q): zero plus the eight trips' terms. -/
theorem tileSum_apply (x0 : Vec Ideal S64x128 .f32) (x1 x2 : Vec Ideal S8x128x256 .f32) (p : Fin 64) (q : Fin 256) :
    tileSum x0 x1 x2 (ix2 p q) = 0 + ∑ k : Fin 8, tripTerm x0 x1 x2 p q k := by
  unfold tileSum
  rw [carriedAt_apply, trips_eq, Finset.sum_range]
  refine congrArg (0 + ·) (Finset.sum_congr rfl fun k _ => ?_)
  rw [dif_pos k.isLt]

/-! ## The stores into the output block -/

theorem pay1_apply (j : S64x256.Idx) : k0_pay1 (F := Ideal) j = 0 := by
  show Ideal.ofBits .f32 0x00000000#32 = 0
  exact Ideal.ofBits_zero_f32

theorem pay5_apply (v22 : FVec Ideal S64x256 .f32) (v23 : Vec Ideal S64x256 .f32) (j : S64x256.Idx) :
    k0_pay5 v22 v23 j = v23 j + v22 j := by
  unfold k0_pay5
  rw [shapeCast_self, addf_apply]

section Layout3
variable {α : Type}

/-- A [256] row viewed [1,256] and copied along 64 rows reads (p, q) at q. -/
theorem rowAlongRows_apply (x : S256.Idx → α) (h1 : S256.ShapeCasts S1x256) (h2 : S1x256.ShapeCasts S1x256) (h3 : S1x256.Broadcasts S64x256)
    (p : Fin 64) (q : Fin 256) :
    broadcastTo S64x256 (shapeCast S1x256 (shapeCast S1x256 x h1) h2) h3 (ix2 p q) = x (ix1 q) := by
  rw [shapeCast_self]
  refine (broadcastTo_apply _ h3 (ix2 p q) (ix2 (0 : Fin 1) q) ?_).trans ?_
  · intro a
    match a with
    | ⟨0, _⟩ => rfl
    | ⟨1, _⟩ => rfl
  · exact shapeCast_apply x h1 (ix2 (0 : Fin 1) q) (ix1 q) (by
      rw [Shape.rowMajor_val_one, Shape.rowMajor_val_two]; simp)

end Layout3

theorem pay6_apply (v30 : Vec Ideal S64x256 .f32) (v32 : Vec Ideal S256 .f32) (p : Fin 64) (q : Fin 256) :
    k0_pay6 v30 v32 (ix2 p q) = v30 (ix2 p q) + v32 (ix1 q) := by
  unfold k0_pay6
  rw [addf_apply, shapeCast_self, rowAlongRows_apply]

end Cert.KernelIdeal.Entry

end
-- ==== Proof.KanSpec.lean ====
/-
  The layer as one function of its four arguments, over the extended reals, and the one law of sums the proof needs.

  For a batch row b and an output column o:
      out[b,o] = ( Σ_i Σ_k logistic(x[b,i]·w[i,o,k] + s[i,o,k]) · σ[i,o,k] ) + bias[o],
  where σ[i,o,·] is the softmax of s[i,o,·] over its eight entries, shifted by the larger of −∞ and their maximum.
  The kernel adds the same 256·8 terms tile by tile of 128 input indices, slab by slab within a tile, each partial sum
  started from zero. Addition of extended reals is commutative and associative and zero is neutral, so the two orders
  agree at every argument, infinite ones included; no finiteness is used.
-/
import Idealize.ShloMosaic.PureOps.Ideal
import Idealize.ShloMosaic.Lib.ValueIdx
import Mathlib.Algebra.BigOperators.Fin

noncomputable section

namespace KanSpec

open Idealize.ShloMosaic Idealize.ShloMosaic.ValueIdx

/-- The softmax's shift at (i, o): the larger of −∞ and the maximum of the eight spline coefficients. -/
def shift (s : (⟨3, ![256, 256, 8]⟩ : Shape).Idx → EReal) (i o : Fin 256) : EReal :=
  max (Ideal.ofBits .f32 0xFF800000#32)
    ((Finset.univ : Finset (Fin 8)).fold max (Ideal.ofBits .f32 0xFF800000#32) fun k => s (ix3 i o k))

/-- The softmax's denominator at (i, o). -/
def norm (s : (⟨3, ![256, 256, 8]⟩ : Shape).Idx → EReal) (i o : Fin 256) : EReal :=
  ∑ k : Fin 8, Ideal.exp (s (ix3 i o k) - shift s i o)

/-- One term of the layer's double sum. -/
def term (x : (⟨2, ![512, 256]⟩ : Shape).Idx → EReal) (w s : (⟨3, ![256, 256, 8]⟩ : Shape).Idx → EReal)
    (b : Fin 512) (i o : Fin 256) (k : Fin 8) : EReal :=
  Ideal.logistic (x (ix2 b i) * w (ix3 i o k) + s (ix3 i o k))
    * Ideal.div (Ideal.exp (s (ix3 i o k) - shift s i o)) (norm s i o)

/-- The layer at row b, column o. -/
def kanAt (x : (⟨2, ![512, 256]⟩ : Shape).Idx → EReal) (w s : (⟨3, ![256, 256, 8]⟩ : Shape).Idx → EReal)
    (bias : (⟨1, ![256]⟩ : Shape).Idx → EReal) (b : Fin 512) (o : Fin 256) : EReal :=
  (∑ i : Fin 256, ∑ k : Fin 8, term x w s b i o k) + bias (ix1 o)

/-- The layer as an array. -/
def kan (x : (⟨2, ![512, 256]⟩ : Shape).Idx → EReal) (w s : (⟨3, ![256, 256, 8]⟩ : Shape).Idx → EReal)
    (bias : (⟨1, ![256]⟩ : Shape).Idx → EReal) : (⟨2, ![512, 256]⟩ : Shape).Idx → EReal :=
  fun j => kanAt x w s bias (j 0) (j 1)

/-- The first and the second tile of 128 input indices. -/
abbrev lowHalf (r : Fin 128) : Fin 256 := ⟨r.val, by have := r.isLt; omega⟩
abbrev highHalf (r : Fin 128) : Fin 256 := ⟨128 + r.val, by have := r.isLt; omega⟩

/-- A sum over 256 indices is the sum over the first 128 plus the sum over the last 128. -/
theorem sum_halves {β : Type*} [AddCommMonoid β] (g : Fin 256 → β) :
    ∑ i : Fin 256, g i = ∑ r : Fin 128, g (lowHalf r) + ∑ r : Fin 128, g (highHalf r) := by
  have h := Fin.sum_univ_add (M := β) (a := 128) (b := 128) (fun i : Fin (128 + 128) => g ⟨i.val, i.isLt⟩)
  refine (Eq.trans ?_ h).trans ?_
  · rfl
  · refine congrArg₂ (· + ·) (Finset.sum_congr rfl fun r _ => ?_) (Finset.sum_congr rfl fun r _ => ?_)
    · exact congrArg g (Fin.ext rfl)
    · exact congrArg g (Fin.ext rfl)

/-- THE LAW: the kernel's order of summation — zero, plus the first tile's eight slab sums started from zero, plus the
    second tile's — gives the double sum over all 256 input indices and 8 slabs. -/
theorem tiles_eq_double_sum (f : Fin 256 → Fin 8 → EReal) :
    ((0 + (0 + ∑ k : Fin 8, ∑ r : Fin 128, f (lowHalf r) k)) + (0 + ∑ k : Fin 8, ∑ r : Fin 128, f (highHalf r) k))
      = ∑ i : Fin 256, ∑ k : Fin 8, f i k := by
  rw [zero_add, zero_add, zero_add, sum_halves (fun i => ∑ k : Fin 8, f i k),
    Finset.sum_comm (f := fun (k : Fin 8) (r : Fin 128) => f (lowHalf r) k),
    Finset.sum_comm (f := fun (k : Fin 8) (r : Fin 128) => f (highHalf r) k)]

end KanSpec

end
-- ==== Proof.IdealArray.lean ====
/-
  From the blocks written back to the whole result array.

  Point t = 2·bi + ii stages rows 64·bi … 64·bi+63 of x and columns 128·ii … 128·ii+127 of it, the slabs' rows
  128·ii … 128·ii+127 of the transposed weights and spline coefficients (slab k, row i, column o of the transposed
  array is entry (i, o, k) of the argument), the whole bias, and rows 64·bi … 64·bi+63 of the result. The block written
  back after the odd point 2·bi+1 is therefore, entry by entry, the layer's value at the rows of batch tile bi; the eight
  written blocks tile the result.
-/
import proofs.«181999_j73194832658946_1_alg».proof.Proof.IdealEntry
import proofs.«181999_j73194832658946_1_alg».proof.Proof.KanSpec
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Body Cert.KernelIdeal.BlockValue Cert.KernelIdeal.Entry
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## Where each window's block sits -/

/-- The windows' block indices at point t, decided over the sixteen points. -/
theorem index_facts : ∀ t : Fin cfg0.N,
    win0_0.index t (0 : Fin 2) = t.val / 2 ∧ win0_0.index t (1 : Fin 2) = t.val % 2
    ∧ win0_1.index t (0 : Fin 3) = 0 ∧ win0_1.index t (1 : Fin 3) = t.val % 2 ∧ win0_1.index t (2 : Fin 3) = 0
    ∧ win0_2.index t (0 : Fin 3) = 0 ∧ win0_2.index t (1 : Fin 3) = t.val % 2 ∧ win0_2.index t (2 : Fin 3) = 0
    ∧ win0_3.index t (0 : Fin 1) = 0
    ∧ win0_4.index t (0 : Fin 2) = t.val / 2 ∧ win0_4.index t (1 : Fin 2) = 0 :=
  (by decide +kernel : ∀ t : Fin grid0.N, _)

/-- The region finds the weights transposed: slab k, row i, column o holds the argument's entry (i, o, k). -/
theorem V_weights (c : Dev nD) :
    (V m c main_v0 : S8x256x256.Idx → EReal)
      = transpose S8x256x256 [2, 0, 1] (m ((c : Thread nD τ).loc main_arg1)) transposes_S256x256x8_S8x256x256_2_0_1 := by
  dsimp only [V, hostOps0]; after_results

/-- The same for the spline coefficients. -/
theorem V_spline (c : Dev nD) :
    (V m c main_v1 : S8x256x256.Idx → EReal)
      = transpose S8x256x256 [2, 0, 1] (m ((c : Thread nD τ).loc main_arg2)) transposes_S256x256x8_S8x256x256_2_0_1 := by
  dsimp only [V, hostOps0]; after_results

/-- The transposed array at (k, i, o) is the argument at (i, o, k). -/
theorem transposed_apply (x : S256x256x8.Idx → EReal) (h : S256x256x8.Transposes [2, 0, 1] S8x256x256) (k : Fin 8) (i o : Fin 256) :
    transpose S8x256x256 [2, 0, 1] x h (ix3 k i o) = x (ix3 i o k) := by
  refine transpose_apply [2, 0, 1] x h (ix3 k i o) (ix3 i o k) ?_
  intro b
  match b with
  | ⟨0, _⟩ => rfl
  | ⟨1, _⟩ => rfl
  | ⟨2, _⟩ => rfl

/-- The x block of point t at (p, r). -/
theorem read_x (c : Dev nD) (t : Fin cfg0.N) (p : Fin 64) (r : Fin 128) (b : Fin 512) (i : Fin 256)
    (hb : b.val = 64 * (t.val / 2) + p.val) (hi : i.val = 128 * (t.val % 2) + r.val) :
    iblk m c 0 t (ix2 p r) = m ((c : Thread nD τ).loc main_arg0) (ix2 b i) := by
  show V m c main_arg0 (((cfg0.win 0).blk t).view.emb (ix2 p r)) = _
  rw [V_main_arg0]
  obtain ⟨e0, e1, -⟩ := index_facts t
  refine congrArg _ (funext fun a => Fin.ext ?_)
  match a with
  | ⟨0, _⟩ => show win0_0.index t (0 : Fin 2) * 64 + 1 * p.val = b.val; omega
  | ⟨1, _⟩ => show win0_0.index t (1 : Fin 2) * 128 + 1 * r.val = i.val; omega

/-- The weight block of point t at (k, r, q). -/
theorem read_w (c : Dev nD) (t : Fin cfg0.N) (k : Fin 8) (r : Fin 128) (q : Fin 256) (i : Fin 256)
    (hi : i.val = 128 * (t.val % 2) + r.val) :
    iblk m c 1 t (ix3 k r q) = m ((c : Thread nD τ).loc main_arg1) (ix3 i q k) := by
  show (V m c main_v0 : S8x256x256.Idx → EReal) (((cfg0.win 1).blk t).view.emb (ix3 k r q)) = _
  rw [V_weights]
  refine Eq.trans ?_ (transposed_apply (m ((c : Thread nD τ).loc main_arg1)) transposes_S256x256x8_S8x256x256_2_0_1 k i q)
  obtain ⟨-, -, e0, e1, e2, -⟩ := index_facts t
  refine congrArg _ (funext fun a => Fin.ext ?_)
  match a with
  | ⟨0, _⟩ => show win0_1.index t (0 : Fin 3) * 8 + 1 * k.val = k.val; omega
  | ⟨1, _⟩ => show win0_1.index t (1 : Fin 3) * 128 + 1 * r.val = i.val; omega
  | ⟨2, _⟩ => show win0_1.index t (2 : Fin 3) * 256 + 1 * q.val = q.val; omega

/-- The spline block of point t at (k, r, q). -/
theorem read_s (c : Dev nD) (t : Fin cfg0.N) (k : Fin 8) (r : Fin 128) (q : Fin 256) (i : Fin 256)
    (hi : i.val = 128 * (t.val % 2) + r.val) :
    iblk m c 2 t (ix3 k r q) = m ((c : Thread nD τ).loc main_arg2) (ix3 i q k) := by
  show (V m c main_v1 : S8x256x256.Idx → EReal) (((cfg0.win 2).blk t).view.emb (ix3 k r q)) = _
  rw [V_spline]
  refine Eq.trans ?_ (transposed_apply (m ((c : Thread nD τ).loc main_arg2)) transposes_S256x256x8_S8x256x256_2_0_1 k i q)
  obtain ⟨-, -, -, -, -, e0, e1, e2, -⟩ := index_facts t
  refine congrArg _ (funext fun a => Fin.ext ?_)
  match a with
  | ⟨0, _⟩ => show win0_2.index t (0 : Fin 3) * 8 + 1 * k.val = k.val; omega
  | ⟨1, _⟩ => show win0_2.index t (1 : Fin 3) * 128 + 1 * r.val = i.val; omega
  | ⟨2, _⟩ => show win0_2.index t (2 : Fin 3) * 256 + 1 * q.val = q.val; omega

/-- The bias block is the bias. -/
theorem read_b (c : Dev nD) (t : Fin cfg0.N) (q : Fin 256) :
    iblk m c 3 t (ix1 q) = m ((c : Thread nD τ).loc main_arg3) (ix1 q) := by
  show V m c main_arg3 (((cfg0.win 3).blk t).view.emb (ix1 q)) = _
  rw [V_main_arg3]
  obtain ⟨-, -, -, -, -, -, -, -, e0, -⟩ := index_facts t
  refine congrArg _ (funext fun a => Fin.ext ?_)
  match a with
  | ⟨0, _⟩ => show win0_3.index t (0 : Fin 1) * 256 + 1 * q.val = q.val; omega

/-! ## A tile's terms are the layer's terms -/

/-- What a trip adds at (p, q), over blocks that are the arguments read at row b and input indices ι r. -/
theorem tripTerm_congr (x0 : Vec Ideal S64x128 .f32) (x1 x2 : Vec Ideal S8x128x256 .f32)
    (X : (⟨2, ![512, 256]⟩ : Shape).Idx → EReal) (W S : (⟨3, ![256, 256, 8]⟩ : Shape).Idx → EReal)
    (b : Fin 512) (ι : Fin 128 → Fin 256) (p : Fin 64) (q : Fin 256)
    (h0 : ∀ r, x0 (ix2 p r) = X (ix2 b (ι r)))
    (h1 : ∀ k r, x1 (ix3 k r q) = W (ix3 (ι r) q k))
    (h2 : ∀ k r, x2 (ix3 k r q) = S (ix3 (ι r) q k)) (k : Fin 8) :
    tripTerm x0 x1 x2 p q k = ∑ r : Fin 128, KanSpec.term X W S b (ι r) q k := by
  unfold tripTerm KanSpec.term
  refine Finset.sum_congr rfl fun r _ => ?_
  have hs : shiftOf x2 r q = KanSpec.shift S (ι r) q := by
    unfold shiftOf KanSpec.shift; simp only [h2]
  have hn : normOf x2 r q = KanSpec.norm S (ι r) q := by
    unfold normOf KanSpec.norm; simp only [h2, hs]
  rw [h0, h1, h2, hs, hn]

/-- THE BLOCK WRITTEN BACK after an odd point, entry by entry: the layer at the rows of the point's batch tile. -/
theorem closingBlock_apply (c : Dev nD) (t : Fin cfg0.N) (h1 : t.val % 2 = 1) (p : Fin 64) (q : Fin 256) (b : Fin 512)
    (hb : b.val = 64 * (t.val / 2) + p.val) :
    blockAfter m c t.val t.isLt (ix2 p q)
      = KanSpec.kanAt (m ((c : Thread nD τ).loc main_arg0)) (m ((c : Thread nD τ).loc main_arg1))
          (m ((c : Thread nD τ).loc main_arg2)) (m ((c : Thread nD τ).loc main_arg3)) b q := by
  have hN : t.val < 16 := lt_of_lt_of_eq t.isLt (show cfg0.N = 16 from N_0)
  rw [blockAfter_closing m c t h1, pay6_apply, pay5_apply, pay5_apply, pay1_apply, tileSum_apply, tileSum_apply, read_b]
  unfold KanSpec.kanAt
  rw [← KanSpec.tiles_eq_double_sum]
  refine congrArg (· + _) ?_
  refine congrArg₂ (fun u v => (0 + (0 + u)) + (0 + v)) ?_ ?_
  · refine Finset.sum_congr rfl fun k _ => ?_
    refine tripTerm_congr _ _ _ _ _ _ b KanSpec.lowHalf p q ?_ ?_ ?_ k
    · intro r; exact read_x m c _ p r b _ (by dsimp only; omega) (by dsimp only; omega)
    · intro k r; exact read_w m c _ k r q _ (by dsimp only; omega)
    · intro k r; exact read_s m c _ k r q _ (by dsimp only; omega)
  · refine Finset.sum_congr rfl fun k _ => ?_
    refine tripTerm_congr _ _ _ _ _ _ b KanSpec.highHalf p q ?_ ?_ ?_ k
    · intro r; exact read_x m c _ p r b _ (by omega) (by dsimp only; omega)
    · intro k r; exact read_w m c _ k r q _ (by dsimp only; omega)
    · intro k r; exact read_s m c _ k r q _ (by dsimp only; omega)

/-! ## The written blocks tile the result -/

/-- The layer's array at an index whose coordinates are b and o. -/
theorem kan_at (X : (⟨2, ![512, 256]⟩ : Shape).Idx → EReal) (W S : (⟨3, ![256, 256, 8]⟩ : Shape).Idx → EReal)
    (B : (⟨1, ![256]⟩ : Shape).Idx → EReal) (j : (⟨2, ![512, 256]⟩ : Shape).Idx) (b : Fin 512) (o : Fin 256)
    (hb : (j 0).val = b.val) (ho : (j 1).val = o.val) : KanSpec.kan X W S B j = KanSpec.kanAt X W S B b o := by
  unfold KanSpec.kan
  have e0 : j 0 = b := Fin.ext hb
  have e1 : j 1 = o := Fin.ext ho
  rw [e0, e1]

/-- WHAT AN ODD POINT WRITES BACK is its block of the layer's array of the arguments. -/
theorem flushed_eq (c : Dev nD) (t : Fin cfg0.N) (hf : (cfg0.win 4).flush t = true) :
    (dats m 0 c).flushed 4 t = ((cfg0.win 4).blk t).view.read (Elt Ideal)
      (KanSpec.kan (m ((c : Thread nD τ).loc main_arg0)) (m ((c : Thread nD τ).loc main_arg1))
        (m ((c : Thread nD τ).loc main_arg2)) (m ((c : Thread nD τ).loc main_arg3))) := by
  have h1 : t.val % 2 = 1 := (flush0_4 t).mp hf
  have hN : t.val < 16 := lt_of_lt_of_eq t.isLt (show cfg0.N = 16 from N_0)
  show (cfg0.win 4).cut (grid0.coords t) ((dats m 0 c).after 4 t) = _
  rw [after_o]
  funext j
  obtain ⟨p, q, rfl⟩ : ∃ (p : Fin 64) (q : Fin 256), j = ix2 p q := ⟨j 0, j 1, eq_ix2 j⟩
  obtain ⟨-, -, -, -, -, -, -, -, -, e0, e1⟩ := index_facts t
  show blockAfter m c t.val t.isLt (ix2 p q) = KanSpec.kan _ _ _ _ (((cfg0.win 4).blk t).view.emb (ix2 p q))
  rw [closingBlock_apply m c t h1 p q ⟨64 * (t.val / 2) + p.val, by have := p.isLt; omega⟩ rfl]
  refine (kan_at _ _ _ _ _ _ q ?_ ?_).symm
  · show win0_4.index t (0 : Fin 2) * 64 + 1 * p.val = 64 * (t.val / 2) + p.val; omega
  · show win0_4.index t (1 : Fin 2) * 256 + 1 * q.val = q.val; omega

/-- An index of the result is in point t's block iff each coordinate is in the block's range on its axis. -/
theorem mem_blk (t : Fin cfg0.N) (i : S512x256.Idx) :
    i ∈ ((cfg0.win 4).blk t).view.set ↔ ∀ a : Fin 2, win0_4.index t a * S64x256.size a ≤ (i a).val ∧ (i a).val < win0_4.index t a * S64x256.size a + S64x256.size a := by
  show i ∈ ((View.whole main_v2).slice (win0_4.rect t)).set ↔ _
  rw [View.set_slice_whole, Rect.mem_set_unit]
  exact Iff.rfl

/-- Every index of the result is in the block of an odd point: row b belongs to batch tile b / 64. -/
theorem covered (i : S512x256.Idx) : ∃ t : Fin cfg0.N, (cfg0.win 4).flush t = true ∧ i ∈ ((cfg0.win 4).blk t).view.set := by
  have hi0 : (i 0).val < 512 := (i 0).isLt
  have hi1 : (i 1).val < 256 := (i 1).isLt
  obtain ⟨t, ht⟩ : ∃ t : Fin cfg0.N, t.val = 2 * ((i 0).val / 64) + 1 :=
    ⟨⟨2 * ((i 0).val / 64) + 1, by rw [show cfg0.N = 16 from N_0]; omega⟩, rfl⟩
  obtain ⟨-, -, -, -, -, -, -, -, -, e0, e1⟩ := index_facts t
  refine ⟨t, (flush0_4 t).mpr (by omega), ?_⟩
  rw [mem_blk]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 256 ≤ (i 1).val ∧ (i 1).val < win0_4.index t (1 : Fin 2) * 256 + 256; omega

/-- THE RESULT ARRAY after the run is the layer's array of the arguments. -/
theorem final (c : Dev nD) :
    (dats m 0 c).arrAt 4 cfg0.N
      = KanSpec.kan (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t hf => flushed_eq m c t hf) covered

/-- THE KERNEL'S RUN, read: it terminates with the result array at the layer's value and the arguments unchanged. -/
theorem run : θ_run defs (onTc (τ := τ) (main (F := Ideal))) ⟨m, fun _ => 0, ρ⟩ fun r => ∀ c : Dev nD,
      r.2.mem ((c.tc : Thread nD τ).loc main_v2)
        = KanSpec.kan (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c)))⟩)
    (run_main m ρ)

end Cert.KernelIdeal.Whole

end
-- ==== Proof.RefValue.lean ====
/-
  The reference computes the layer's array.

  The host program forms, for every (b, i, o, k), the product of 1/(1 + exp(−(w[i,o,k]·x[b,i] + s[i,o,k]))) with the
  softmax of s[i,o,·] at k, sums it over the axes of i and k from zero, and adds the bias row. Over the extended reals the
  quotient is the logistic function of the same argument and the product w·x is x·w; the sum over the two axes is the
  double sum.
-/
import proofs.«181999_j73194832658946_1_alg».proof.Proof.Gen.ReferenceIdeal.Read
import proofs.«181999_j73194832658946_1_alg».proof.Proof.KanSpec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

variable (X : (⟨S512x256, .f32⟩ : BufTy).Contents (Elt Ideal)) (W S : (⟨S256x256x8, .f32⟩ : BufTy).Contents (Elt Ideal))
  (B : (⟨S256, .f32⟩ : BufTy).Contents (Elt Ideal))

/-! ## The softmax of the spline coefficients -/

/-- The index the reduction over the last axis reads for its k'-th term at (i, o). -/
theorem liftLast (h : S256x256x8.Reduces [2] S256x256) (i o : Fin 256) (k' : Fin 8) : h.lift (ix2 i o) k' = ix3 i o k' := by
  funext a
  match a with
  | ⟨0, _⟩ => rfl
  | ⟨1, _⟩ => rfl
  | ⟨2, _⟩ => rfl

/-- The reference's maximum over the last axis at (i, o): the fold of max from −∞ over the eight coefficients. -/
theorem ref_max (i o : Fin 256) :
    val_main_v14 (F := Ideal) S (ix2 i o)
      = (Finset.univ : Finset (Fin 8)).fold max (Ideal.ofBits .f32 0xFF800000#32) fun k => S (ix3 i o k) := by
  have hr : S256x256x8.Reduces [2] S256x256 := by decide
  have h1 := Host.reduce_eq_fold_single (α := EReal) max S (val_main_cst_1 (F := Ideal)) reducesTo_S256x256x8_S256x256_d2 hr h_S_ (ix2 i o)
  refine (Eq.trans (by rfl) h1).trans ?_
  refine congrArg₂ (fun a f => (Finset.univ : Finset (Fin 8)).fold max a f) rfl (funext fun (k : Fin 8) => ?_)
  show S (hr.lift (ix2 i o) k) = S (ix3 i o k)
  rw [liftLast]

/-- The reference's shift at (i, o, k) is the layer's. -/
theorem ref_shift (i o : Fin 256) (k : Fin 8) : val_main_v18 (F := Ideal) S (ix3 i o k) = KanSpec.shift S i o := by
  rw [val_main_v18_apply, val_main_v17_apply, val_main_v16_apply, val_main_v15_apply, val_main_cst_2_apply]
  have e : idx_main_v17 (idx_main_v18 (ix3 i o k)) = ix2 i o :=
    funext fun a => Fin.ext (by match a with | ⟨0, _⟩ => rfl | ⟨1, _⟩ => rfl)
  rw [e, ref_max, Ideal.maximumf_def, Ideal.ofBits_def]
  rfl

/-- The reference's exponentials exp(s − shift). -/
theorem ref_exp (i o : Fin 256) (k : Fin 8) :
    val_main_v20 (F := Ideal) S (ix3 i o k) = Ideal.exp (S (ix3 i o k) - KanSpec.shift S i o) := by
  rw [val_main_v20_apply, val_main_v19_apply, ref_shift, Ideal.hostUnary_exp_def, Ideal.subf_def]

/-- The reference's softmax denominator at (i, o, k) is the layer's. -/
theorem ref_norm (i o : Fin 256) (k : Fin 8) : val_main_v23 (F := Ideal) S (ix3 i o k) = KanSpec.norm S i o := by
  rw [val_main_v23_apply, val_main_v22_apply]
  have e : idx_main_v22 (idx_main_v23 (ix3 i o k)) = ix2 i o :=
    funext fun a => Fin.ext (by match a with | ⟨0, _⟩ => rfl | ⟨1, _⟩ => rfl)
  rw [e, val_main_v21_apply, val_main_cst_3_apply, Ideal.ofBits_def, Ideal.ofBits_zero_f32, zero_add]
  unfold KanSpec.norm
  refine Finset.sum_congr rfl fun (k' : Fin 8) _ => ?_
  have e' : idx_main_v21 (ix2 i o) k' = ix3 i o k' :=
    funext fun a => Fin.ext (by match a with | ⟨0, _⟩ => rfl | ⟨1, _⟩ => rfl | ⟨2, _⟩ => rfl)
  rw [e', ref_exp]

/-- The reference's softmax weight. -/
theorem ref_weight (i o : Fin 256) (k : Fin 8) :
    val_main_v24 (F := Ideal) S (ix3 i o k)
      = Ideal.div (Ideal.exp (S (ix3 i o k) - KanSpec.shift S i o)) (KanSpec.norm S i o) := by
  rw [val_main_v24_apply, ref_exp, ref_norm, Ideal.hostDivf_def]

/-! ## One term, the double sum, the result -/

/-- The word of 1.0 denotes the extended real 1. -/
theorem one_f32 : Ideal.ofBits .f32 0x3F800000#32 = 1 := IdealRules.sign_bit.ideal_onePat .f32

/-- The reference's product at (b, i, o, k) is the layer's term: its quotient 1/(1 + exp(−z)) is the logistic function
    of z, and w·x is x·w. -/
theorem ref_term (b : Fin 512) (i o : Fin 256) (k : Fin 8) :
    val_main_v27 (F := Ideal) X W S (ix4 b i o k) = KanSpec.term X W S b i o k := by
  have e1 : idx_main_v1 (idx_main_v2 (ix4 b i o k)) = ix3 i o k :=
    funext fun a => Fin.ext (by match a with | ⟨0, _⟩ => rfl | ⟨1, _⟩ => rfl | ⟨2, _⟩ => rfl)
  have e0 : idx_main_v0 (idx_main_v3 (ix4 b i o k)) = ix2 b i :=
    funext fun a => Fin.ext (by match a with | ⟨0, _⟩ => rfl | ⟨1, _⟩ => rfl)
  have e5 : idx_main_v5 (idx_main_v6 (ix4 b i o k)) = ix3 i o k :=
    funext fun a => Fin.ext (by match a with | ⟨0, _⟩ => rfl | ⟨1, _⟩ => rfl | ⟨2, _⟩ => rfl)
  have e25 : idx_main_v25 (idx_main_v26 (ix4 b i o k)) = ix3 i o k :=
    funext fun a => Fin.ext (by match a with | ⟨0, _⟩ => rfl | ⟨1, _⟩ => rfl | ⟨2, _⟩ => rfl)
  rw [val_main_v27_apply, val_main_v13_apply, val_main_v12_apply, val_main_cst_0_apply, val_main_v11_apply,
    val_main_v10_apply, val_main_cst_apply, val_main_v9_apply, val_main_v8_apply, val_main_v7_apply, val_main_v4_apply,
    val_main_v2_apply, val_main_v1_apply, val_main_v3_apply, val_main_v0_apply, val_main_v6_apply, val_main_v5_apply,
    val_main_v26_apply, val_main_v25_apply, e1, e0, e5, e25, ref_weight]
  unfold KanSpec.term Ideal.logistic
  simp only [Ideal.mulf_def, Ideal.addf_def, Ideal.hostDivf_def, Ideal.hostUnary_exp_def, Ideal.hostNegf_def,
    Ideal.negf_def, Ideal.ofBits_def, one_f32, mul_comm (W (ix3 i o k)) (X (ix2 b i))]

/-- The indices that the reduction over the axes of i and k sends to (b, o) are the (b, i, o, k). -/
theorem sum_over_i_k (y : S512x256x256x8.Idx → EReal) (b : Fin 512) (o : Fin 256) :
    ∑ j ∈ Finset.univ.filter (fun j => reducesTo_S512x256x256x8_S512x256_d1_3.drop j = ix2 b o), y j
      = ∑ i : Fin 256, ∑ k : Fin 8, y (ix4 b i o k) := by
  rw [← Finset.sum_product' (Finset.univ : Finset (Fin 256)) (Finset.univ : Finset (Fin 8)) (fun i k => y (ix4 b i o k))]
  refine Finset.sum_nbij' (fun j => ((j 1 : Fin 256), (j 3 : Fin 8))) (fun ik => ix4 b ik.1 o ik.2) ?_ ?_ ?_ ?_ ?_
  · intro j _; exact Finset.mem_product.2 ⟨Finset.mem_univ _, Finset.mem_univ _⟩
  · intro ik _
    refine Finset.mem_filter.2 ⟨Finset.mem_univ _, ?_⟩
    funext a
    match a with
    | ⟨0, _⟩ => rfl
    | ⟨1, _⟩ => rfl
  · intro j hj
    have hd := (Finset.mem_filter.1 hj).2
    have h0 : (j 0).val = b.val := congrArg (fun z : S512x256.Idx => (z 0).val) hd
    have h2 : (j 2).val = o.val := congrArg (fun z : S512x256.Idx => (z 1).val) hd
    funext a
    match a with
    | ⟨0, _⟩ => exact Fin.ext h0.symm
    | ⟨1, _⟩ => rfl
    | ⟨2, _⟩ => exact Fin.ext h2.symm
    | ⟨3, _⟩ => rfl
  · intro ik _; rfl
  · intro j hj
    have hd := (Finset.mem_filter.1 hj).2
    have h0 : (j 0).val = b.val := congrArg (fun z : S512x256.Idx => (z 0).val) hd
    have h2 : (j 2).val = o.val := congrArg (fun z : S512x256.Idx => (z 1).val) hd
    refine congrArg y (funext fun a => ?_)
    match a with
    | ⟨0, _⟩ => exact Fin.ext h0
    | ⟨1, _⟩ => rfl
    | ⟨2, _⟩ => exact Fin.ext h2
    | ⟨3, _⟩ => rfl

/-- The reference's sum over the axes of i and k at (b, o): zero plus the double sum. -/
theorem ref_sum (b : Fin 512) (o : Fin 256) :
    val_main_v28 (F := Ideal) X W S (ix2 b o) = 0 + ∑ i : Fin 256, ∑ k : Fin 8, KanSpec.term X W S b i o k := by
  unfold val_main_v28
  generalize hy : val_main_v27 (F := Ideal) X W S = y
  simp only [Host.reduceAdd, Ideal.hostReduceAdd_def]
  unfold Ideal.hostReduceAdd
  rw [sum_over_i_k, val_main_cst_4_apply, Ideal.ofBits_def, Ideal.ofBits_zero_f32]
  refine congrArg (0 + ·) (Finset.sum_congr rfl fun i _ => Finset.sum_congr rfl fun k _ => ?_)
  rw [← hy, ref_term]

/-- THE REFERENCE'S RESULT is the layer's array. -/
theorem result_eq : val_main_v31 (F := Ideal) X W S B = KanSpec.kan X W S B := by
  funext j
  obtain ⟨b, o, rfl⟩ : ∃ (b : Fin 512) (o : Fin 256), j = ix2 b o := ⟨j 0, j 1, eq_ix2 j⟩
  have e : idx_main_v29 (idx_main_v30 (ix2 b o)) = ix1 o :=
    funext fun a => Fin.ext (by match a with | ⟨0, _⟩ => rfl)
  rw [val_main_v31_apply, ref_sum, val_main_v30_apply, val_main_v29_apply, e, Ideal.addf_def, zero_add]
  rfl

end Cert.ReferenceIdeal.RefValue

end
-- ==== Proof.lean ====
/-
  The certificate's five claims for a KAN layer kernel against its jnp reference.

  The layer, for x : [512,256], weights w and spline coefficients s : [256,256,8], bias : [256]:
      out[b,o] = Σ_i Σ_k logistic(x[b,i]·w[i,o,k] + s[i,o,k]) · softmax_k(s[i,o,·]) + bias[o].

  The kernel runs on a grid of 8 batch tiles by 2 tiles of the input index i. At each point it recomputes the softmax of
  its spline block, runs eight trips (one per k) that each add a row-sum over the tile's 128 values of i to a carried
  block, and adds the carried block to the output block, which it clears at the first tile and to which it adds the bias
  at the second. Read at an entry, the block written back after the second tile is
      ((0 + (0 + Σ_k Σ_{i<128} t)) + (0 + Σ_k Σ_{128≤i} t)) + bias,
  and the reference's result is (0 + Σ_{(i,k)} t') + bias with t' the same term spelt through 1/(1 + exp(−z)) and w·x.
  Both are the layer's value: sums of extended reals may be regrouped and reordered freely, zero is neutral, the quotient
  is the logistic function by definition, and the product commutes. No step needs the inputs to be finite, so the
  precondition is not used.

  The three frames: each kernel program's run is the pipeline's run over the body's run at the sixteen points
  (one module per program, the same text at bit-exact and at ideal values); the reference's is its host operations' run.
  The idealization rewrote nothing, so nothing is to preserve.
-/
import proofs.«181999_j73194832658946_1_alg».proof.Defs
import proofs.«181999_j73194832658946_1_alg».proof.Proof.Gen.Kernel
import proofs.«181999_j73194832658946_1_alg».proof.Proof.Gen.KernelIdeal
import proofs.«181999_j73194832658946_1_alg».proof.Proof.Gen.ReferenceIdeal
import proofs.«181999_j73194832658946_1_alg».proof.Proof.Gen.ReferenceIdeal.Run
import proofs.«181999_j73194832658946_1_alg».proof.Proof.Gen.ReferenceIdeal.Read
import proofs.«181999_j73194832658946_1_alg».proof.Proof.Gen.Pre_finite_inputs
import proofs.«181999_j73194832658946_1_alg».proof.Proof.KernelBody
import proofs.«181999_j73194832658946_1_alg».proof.Proof.IdealArray
import proofs.«181999_j73194832658946_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Body.frame m ρ

/-- So does the kernel read at ideal values. -/
theorem frame_ideal : Cert.frame_KernelIdeal := fun m ρ _ => Cert.KernelIdeal.Body.frame m ρ

/-- The reference's host operations run and leave its arguments unchanged. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's are both the layer's array of the arguments. -/
theorem algebraic : Cert.algebraic_KernelIdeal_ReferenceIdeal := by
  intro m ρ m' ρ' _ hagree
  refine ⟨fun c => KanSpec.kan (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
